-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S256x16 : Shape := ⟨2, ![256, 16]⟩
abbrev S1x16 : Shape := ⟨2, ![1, 16]⟩
abbrev S16x256 : Shape := ⟨2, ![16, 256]⟩
abbrev S1x256 : Shape := ⟨2, ![1, 256]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S256x16 : S_.BroadcastsInDim S256x16 (![] : Fin 0 → Fin S256x16.rank)
  reducesTo_S256x16_S_d0_1 : S256x16.ReducesTo [0, 1] S_
  bcast_S_S1x16 : S_.BroadcastsInDim S1x16 (![] : Fin 0 → Fin S1x16.rank)
  reducesTo_S1x16_S_d0_1 : S1x16.ReducesTo [0, 1] S_
  bcast_S_S16x256 : S_.BroadcastsInDim S16x256 (![] : Fin 0 → Fin S16x256.rank)
  reducesTo_S16x256_S_d0_1 : S16x256.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1x256 .f32) (main_v13 : IVec S_ 1) (main_v16 : IVec S16x256 1) : IVec S_ 1 :=
  let main_c_5 : IVec S_ 1 := constantI S_ 1 1#1
  let main_v17 : IVec S_ 1 := (fun x v => Host.reduce IntOp.andi x v reducesTo_S16x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  main_v23

def fn {F : FTy → Type} [FloatOps F] (main_arg0 : FVec F S32x256x56x56 .f32) (main_arg1 : FVec F S256x16 .f32) (main_arg2 : FVec F S1x16 .f32) (main_arg3 : FVec F S16x256 .f32) (main_arg4 : FVec F S1x256 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S16x256 .f32 := Host.absf main_arg3
  let main_cst_4 : FVec F S_ .f32 := constant S_ .f32 0x7F800000#32
  let main_v15 : FVec F S16x256 .f32 := broadcastInDim S16x256 ![] bcast_S_S16x256 main_cst_4
  let main_v16 : IVec S16x256 1 := cmpf .olt main_v14 main_v15
  fn_part1 (F := F) main_arg4 main_v13 main_v16
-- ==== Kernel.lean ====
abbrev S32x256x56x56 : Shape := ⟨4, ![32, 256, 56, 56]⟩
abbrev S256x16 : Shape := ⟨2, ![256, 16]⟩
abbrev S1x16 : Shape := ⟨2, ![1, 16]⟩
abbrev S16x256 : Shape := ⟨2, ![16, 256]⟩
abbrev S1x256 : Shape := ⟨2, ![1, 256]⟩
abbrev S8192x3136 : Shape := ⟨2, ![8192, 3136]⟩
abbrev S16x1 : Shape := ⟨2, ![16, 1]⟩
abbrev S256x1 : Shape := ⟨2, ![256, 1]⟩
abbrev S256x3136 : Shape := ⟨2, ![256, 3136]⟩
abbrev S16x3136 : Shape := ⟨2, ![16, 3136]⟩
abbrev S16 : Shape := ⟨1, ![16]⟩

abbrev nBuf : Space → Nat
  | .hbm => 12
  | .vmem => 8
  | .smem => 0
  | _ => 0

abbrev bufTy : (tb : Table) → Fin (tcTables nBuf tb) → BufTy
  | .hbm, ⟨0, _⟩ => ⟨S32x256x56x56, .f32⟩
  | .hbm, ⟨1, _⟩ => ⟨S256x16, .f32⟩
  | .hbm, ⟨2, _⟩ => ⟨S1x16, .f32⟩
  | .hbm, ⟨3, _⟩ => ⟨S16x256, .f32⟩
  | .hbm, ⟨4, _⟩ => ⟨S1x256, .f32⟩
  | .hbm, ⟨5, _⟩ => ⟨S8192x3136, .f32⟩
  | .hbm, ⟨6, _⟩ => ⟨S16x256, .f32⟩
  | .hbm, ⟨7, _⟩ => ⟨S16x1, .f32⟩
  | .hbm, ⟨8, _⟩ => ⟨S256x16, .f32⟩
  | .hbm, ⟨9, _⟩ => ⟨S256x1, .f32⟩
  | .hbm, ⟨10, _⟩ => ⟨S8192x3136, .f32⟩
  | .hbm, ⟨11, _⟩ => ⟨S32x256x56x56, .f32⟩
  | .local _ .vmem, ⟨0, _⟩ => ⟨S256x3136, .f32⟩
  | .local _ .vmem, ⟨1, _⟩ => ⟨S256x3136, .f32⟩
  | .local _ .vmem, ⟨2, _⟩ => ⟨S16x256, .f32⟩
  | .local _ .vmem, ⟨3, _⟩ => ⟨S16x1, .f32⟩
  | .local _ .vmem, ⟨4, _⟩ => ⟨S256x16, .f32⟩
  | .local _ .vmem, ⟨5, _⟩ => ⟨S256x1, .f32⟩
  | .local _ .vmem, ⟨6, _⟩ => ⟨S256x3136, .f32⟩
  | .local _ .vmem, ⟨7, _⟩ => ⟨S256x3136, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3136 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x56x56_S8192x3136 : S32x256x56x56.ShapeCasts S8192x3136
  transposes_S256x16_S16x256_1_0 : S256x16.Transposes [1, 0] S16x256
  shapeCasts_S1x16_S16x1 : S1x16.ShapeCasts S16x1
  transposes_S16x256_S256x16_1_0 : S16x256.Transposes [1, 0] S256x16
  shapeCasts_S1x256_S256x1 : S1x256.ShapeCasts S256x1
  inb_S256x3136_S256x3136_0_0 : ∀ a, (![0, 0] : Fin 2 → Nat) a + S256x3136.size a ≤ S256x3136.size a
  h_S256x3136 : 0 < S256x3136.numel
  shapeCasts_S256x3136_S256x3136 : S256x3136.ShapeCasts S256x3136
  inb_S16x256_S16x256_0_0 : ∀ a, (![0, 0] : Fin 2 → Nat) a + S16x256.size a ≤ S16x256.size a
  h_S16x256 : 0 < S16x256.numel
  shapeCasts_S16x256_S16x256 : S16x256.ShapeCasts S16x256
  reduces_S16x3136_S16 : S16x3136.Reduces [1] S16
  shapeCasts_S16_S16x1 : S16.ShapeCasts S16x1
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x3136 : S256x1.Broadcasts S256x3136
  shapeCasts_S8192x3136_S32x256x56x56 : S8192x3136.ShapeCasts S32x256x56x56
  dot_S16x256_S256x3136_S16x3136_1_0_0_1_n_n_wf : DotDims.WF S16x256 S256x3136 S16x3136 [1] [0] [0] [1] [] []
  dot_S256x16_S16x1_S256x1_1_0_0_1_n_n_wf : DotDims.WF S256x16 S16x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3136.size a ≤ S8192x3136.size a
  hwx0_0 : ∀ i : grid0.Coords, EltTy.bits .f32 = 32 ∨ (Rect.block (s := S8192x3136) S256x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x3136.size a ≤ S8192x3136.size a
  hwx0_5 : ∀ i : grid0.Coords, EltTy.bits .f32 = 32 ∨ (Rect.block (s := S8192x3136) S256x3136.size (cc0_transform_5 i) (hinb0_5 i)).WholeWords (EltTy.packing .f32)

variable [Facts₀]

def dot_S16x256_S256x3136_S16x3136_1_0_0_1_n_n : DotDims S16x256 S256x3136 S16x3136 where
  lhsContracting := [1]
  rhsContracting := [0]
  lhsNonContracting := [0]
  rhsNonContracting := [1]
  lhsBatch := []
  rhsBatch := []
  wf := dot_S16x256_S256x3136_S16x3136_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_v0) S256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x3136.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S256x16 : Shape := ⟨2, ![256, 16]⟩
abbrev S1x16 : Shape := ⟨2, ![1, 16]⟩
abbrev S16x256 : Shape := ⟨2, ![16, 256]⟩
abbrev S1x256 : Shape := ⟨2, ![1, 256]⟩
abbrev S32x256x3136 : Shape := ⟨3, ![32, 256, 3136]⟩
abbrev S1x256x3136 : Shape := ⟨3, ![1, 256, 3136]⟩
abbrev S1x256x1 : Shape := ⟨3, ![1, 256, 1]⟩

abbrev nBuf : Space → Nat
  | .hbm => 8
  | .vmem => 8
  | .smem => 0
  | _ => 0

abbrev bufTy : (tb : Table) → Fin (tcTables nBuf tb) → BufTy
  | .hbm, ⟨0, _⟩ => ⟨S32x256x56x56, .f32⟩
  | .hbm, ⟨1, _⟩ => ⟨S256x16, .f32⟩
  | .hbm, ⟨2, _⟩ => ⟨S1x16, .f32⟩
  | .hbm, ⟨3, _⟩ => ⟨S16x256, .f32⟩
  | .hbm, ⟨4, _⟩ => ⟨S1x256, .f32⟩
  | .hbm, ⟨5, _⟩ => ⟨S32x256x3136, .f32⟩
  | .hbm, ⟨6, _⟩ => ⟨S32x256x3136, .f32⟩
  | .hbm, ⟨7, _⟩ => ⟨S32x256x56x56, .f32⟩
  | .local _ .vmem, ⟨0, _⟩ => ⟨S1x256x3136, .f32⟩
  | .local _ .vmem, ⟨1, _⟩ => ⟨S1x256x3136, .f32⟩
  | .local _ .vmem, ⟨2, _⟩ => ⟨S256x16, .f32⟩
  | .local _ .vmem, ⟨3, _⟩ => ⟨S1x16, .f32⟩
  | .local _ .vmem, ⟨4, _⟩ => ⟨S16x256, .f32⟩
  | .local _ .vmem, ⟨5, _⟩ => ⟨S1x256, .f32⟩
  | .local _ .vmem, ⟨6, _⟩ => ⟨S1x256x3136, .f32⟩
  | .local _ .vmem, ⟨7, _⟩ => ⟨S1x256x3136, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x3136 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x56x56_S32x256x3136 : S32x256x56x56.ShapeCasts S32x256x3136
  inb_S1x256x3136_S1x256x3136_0_0_0 : ∀ a, (![0, 0, 0] : Fin 3 → Nat) a + S1x256x3136.size a ≤ S1x256x3136.size a
  h_S1x256x3136 : 0 < S1x256x3136.numel
  shapeCasts_S1x256x3136_S1x256x3136 : S1x256x3136.ShapeCasts S1x256x3136
  reduces_S1x256x3136_S1x256 : S1x256x3136.Reduces [2] S1x256
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  inb_S16x256_S16x256_0_0 : ∀ a, (![0, 0] : Fin 2 → Nat) a + S16x256.size a ≤ S16x256.size a
  h_S16x256 : 0 < S16x256.numel
  inb_S1x256_S1x256_0_0 : ∀ a, (![0, 0] : Fin 2 → Nat) a + S1x256.size a ≤ S1x256.size a
  h_S1x256 : 0 < S1x256.numel
  shapeCasts_S1x256_S1x256x1 : S1x256.ShapeCasts S1x256x1
  broadcasts_S1x256x1_S1x256x3136 : S1x256x1.Broadcasts S1x256x3136
  shapeCasts_S32x256x3136_S32x256x56x56 : S32x256x3136.ShapeCasts S32x256x56x56
  dot_S1x256_S256x16_S1x16_1_0_0_1_n_n_wf : DotDims.WF S1x256 S256x16 S1x16 [1] [0] [0] [1] [] []
  dot_S1x16_S16x256_S1x256_1_0_0_1_n_n_wf : DotDims.WF S1x16 S16x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3136.size a ≤ S32x256x3136.size a
  hwx0_0 : ∀ i : grid0.Coords, EltTy.bits .f32 = 32 ∨ (Rect.block (s := S32x256x3136) S1x256x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x3136.size a ≤ S32x256x3136.size a
  hwx0_5 : ∀ i : grid0.Coords, EltTy.bits .f32 = 32 ∨ (Rect.block (s := S32x256x3136) S1x256x3136.size (cc0_transform_5 i) (hinb0_5 i)).WholeWords (EltTy.packing .f32)

variable [Facts₀]

def dot_S1x256_S256x16_S1x16_1_0_0_1_n_n : DotDims S1x256 S256x16 S1x16 where
  lhsContracting := [1]
  rhsContracting := [0]
  lhsNonContracting := [0]
  rhsNonContracting := [1]
  lhsBatch := []
  rhsBatch := []
  wf := dot_S1x256_S256x16_S1x16_1_0_0_1_n_n_wf
def dot_S1x16_S16x256_S1x256_1_0_0_1_n_n : DotDims S1x16 S16x256 S1x256 where
  lhsContracting := [1]
  rhsContracting := [0]
  lhsNonContracting := [0]
  rhsNonContracting := [1]
  lhsBatch := []
  rhsBatch := []
  wf := dot_S1x16_S16x256_S1x256_1_0_0_1_n_n_wf

abbrev win0_0 : Pipeline.Window sig grid0 :=
  Pipeline.Window.ofSpec (Memref.whole main_v0) S1x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256x3136.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibExtReal.lean ====
/-
  Small facts about rows of real numbers read in the extended reals, and about two f32 patterns: what a proof
  needs when a law holds for finite inputs only and its corner is a row of zeros.
-/
import Idealize.ShloMosaic.PureOps.Ideal

noncomputable section

namespace LibExtReal

open Idealize.ShloMosaic

/-- A finite sum of real numbers read in the extended reals is the sum of the readings. -/
theorem coe_sum {ι : Type} (s : Finset ι) (f : ι → ℝ) :
    (∑ k ∈ s, ((f k : ℝ) : EReal)) = ((∑ k ∈ s, f k : ℝ) : EReal) := by
  classical
  refine Finset.induction_on s (by simp) ?_
  intro a s ha ih
  rw [Finset.sum_insert ha, Finset.sum_insert ha, ih, EReal.coe_add]

/-- A sum of squares is non-negative. -/
theorem sumsq_nonneg {n : ℕ} (a : Fin n → ℝ) : 0 ≤ ∑ k, a k * a k :=
  Finset.sum_nonneg fun k _ => mul_self_nonneg (a k)

/-- A row whose squares sum to zero is the zero row. -/
theorem row_zero_of_sumsq_zero {n : ℕ} (a : Fin n → ℝ) (h : ∑ k, a k * a k = 0) (k : Fin n) : a k = 0 :=
  mul_self_eq_zero.mp
    ((Finset.sum_eq_zero_iff_of_nonneg fun k _ => mul_self_nonneg (a k)).mp h k (Finset.mem_univ k))

/-- So its inner product with any row is zero, on either side. -/
theorem inner_zero_left {n : ℕ} (a b : Fin n → ℝ) (h : ∑ k, a k * a k = 0) : ∑ k, a k * b k = 0 :=
  Finset.sum_eq_zero fun k _ => by rw [row_zero_of_sumsq_zero a h k, zero_mul]

theorem inner_zero_right {n : ℕ} (a b : Fin n → ℝ) (h : ∑ k, b k * b k = 0) : ∑ k, a k * b k = 0 :=
  Finset.sum_eq_zero fun k _ => by rw [row_zero_of_sumsq_zero b h k, mul_zero]

/-- An extended real whose absolute value max(x, −x) is below +∞ is a real number. -/
theorem real_of_abs_lt_top (x : EReal) (h : max x (-x) < ⊤) : ∃ r : ℝ, x = r := by
  induction x using EReal.rec with
  | bot => simp at h
  | coe r => exact ⟨r, rfl⟩
  | top => simp at h

/-- The f32 pattern with all exponent bits set and no fraction is +∞. -/
theorem inf_f32 : Ideal.ofBits .f32 0x7F800000#32 = ⊤ := by simp [Ideal.ofBits, Ideal.ieee]

/-- The f32 pattern of 1.0 is the extended real 1. -/
theorem one_f32 : Ideal.ofBits .f32 0x3F800000#32 = 1 := by
  simp [Ideal.ofBits, Ideal.ieee, -EReal.coe_mul]; norm_num

end LibExtReal

end
-- ==== Proof.Excite.lean ====
/-
  The squeeze-and-excite gate, as mathematics on the extended reals.

  One batch entry is a slab `X : channel → position → EReal`. The gate of channel `c` is
  `logistic (Σ_j W2 j c · hid j + B2 c)` with the hidden row `hid j = max (pre j) z`, and the two programs differ
  only in how `pre j` is arranged:
  * pooled first:  `Σ_c ((Σ_p X c p) · κ) · W1 c j + B1 j`      (average each channel, then the first layer);
  * folded:        `(Σ_p Σ_c W1 c j · X c p) · κ + B1 j`        (the first layer at every position, then the average).
  For real entries of `X`, `W1` and a real `κ` the two are one number: exchange the two finite sums and move the
  factors `κ` and `W1 c j` across them (distributivity, which on the extended reals needs the entries finite).
  The second layer differs only by the order of the two factors of each product.
-/
import Idealize.ShloMosaic.PureOps.Ideal
import Idealize.ShloMosaic.Lib.ValueIdx
import proofs.«115852_g2000109499308976_pallasbulk_549_2_alg».proof.Proof.LibExtReal

noncomputable section

open scoped BigOperators

namespace Cert.Excite

open Idealize.ShloMosaic Idealize.ShloMosaic.ValueIdx

section Abstract
variable {C P H : ℕ}

/-- The hidden row with the pool folded into the first layer. -/
def hidFolded (κ z : EReal) (X : Fin C → Fin P → EReal) (W1 : Fin C → Fin H → EReal) (B1 : Fin H → EReal)
    (j : Fin H) : EReal :=
  max ((∑ p, ∑ c, W1 c j * X c p) * κ + B1 j) z

/-- The hidden row with each channel pooled first. -/
def hidPooled (κ z : EReal) (X : Fin C → Fin P → EReal) (W1 : Fin C → Fin H → EReal) (B1 : Fin H → EReal)
    (j : Fin H) : EReal :=
  max ((∑ c, ((∑ p, X c p) * κ) * W1 c j) + B1 j) z

/-- The gate of a channel, the second layer's weight written first. -/
def gateCol (hid : Fin H → EReal) (W2 : Fin H → Fin C → EReal) (B2 : Fin C → EReal) (c : Fin C) : EReal :=
  Ideal.logistic ((∑ j, W2 j c * hid j) + B2 c)

/-- The gate of a channel, the hidden entry written first. -/
def gateRow (hid : Fin H → EReal) (W2 : Fin H → Fin C → EReal) (B2 : Fin C → EReal) (c : Fin C) : EReal :=
  Ideal.logistic ((∑ j, hid j * W2 j c) + B2 c)

/-- The real identity behind the two arrangements: `(Σ_p Σ_c w c · x c p) · k = Σ_c ((Σ_p x c p) · k) · w c`. -/
theorem pool_fold_real (x : Fin C → Fin P → ℝ) (w : Fin C → ℝ) (k : ℝ) :
    (∑ p, ∑ c, w c * x c p) * k = ∑ c, ((∑ p, x c p) * k) * w c := by
  rw [Finset.sum_comm, Finset.sum_mul]
  refine Finset.sum_congr rfl fun c _ => ?_
  rw [← Finset.mul_sum]
  ring

/-- For real slab entries, real first-layer weights and a real factor, the two hidden rows are one. -/
theorem hid_eq (κ z : EReal) (X : Fin C → Fin P → EReal) (W1 : Fin C → Fin H → EReal) (B1 : Fin H → EReal)
    (hκ : ∃ r : ℝ, κ = r) (hX : ∀ c p, ∃ r : ℝ, X c p = r) (hW : ∀ c j, ∃ r : ℝ, W1 c j = r) :
    hidFolded κ z X W1 B1 = hidPooled κ z X W1 B1 := by
  obtain ⟨k, rfl⟩ := hκ
  choose xr hx using hX
  choose wr hw using hW
  funext j
  unfold hidFolded hidPooled
  have e : (∑ p, ∑ c, W1 c j * X c p) * (k : EReal) = ∑ c, ((∑ p, X c p) * (k : EReal)) * W1 c j := by
    simp only [hx, hw, ← EReal.coe_mul, LibExtReal.coe_sum]
    exact congrArg _ (pool_fold_real xr (fun c => wr c j) k)
  rw [e]

/-- The two spellings of the gate are one: each product's factors exchanged. -/
theorem gate_eq (hid : Fin H → EReal) (W2 : Fin H → Fin C → EReal) (B2 : Fin C → EReal) :
    gateCol hid W2 B2 = gateRow hid W2 B2 := by
  funext c
  unfold gateCol gateRow
  exact congrArg Ideal.logistic (congrArg (· + B2 c) (Finset.sum_congr rfl fun j _ => mul_comm _ _))

end Abstract

/-! ## The block at its shapes: `x : [32, 256, 56, 56]`, hidden width 16 -/

/-- The averaging factor both programs multiply by (the f32 nearest to 1/3136), and the f32 zero the hidden row is
    clamped at. -/
def κ : EReal := Ideal.ofBits .f32 0x39A72F05#32
def z0 : EReal := Ideal.ofBits .f32 0x00000000#32

theorem κ_real : ∃ r : ℝ, κ = r := by
  refine ⟨κ.toReal, (EReal.coe_toReal ?_ ?_).symm⟩
  · simp [κ, Ideal.ofBits, Ideal.ieee, -EReal.coe_mul]
  · simp [κ, Ideal.ofBits, Ideal.ieee, -EReal.coe_mul]

abbrev XS : Shape := ⟨4, ![32, 256, 56, 56]⟩
abbrev W1S : Shape := ⟨2, ![256, 16]⟩
abbrev B1S : Shape := ⟨2, ![1, 16]⟩
abbrev W2S : Shape := ⟨2, ![16, 256]⟩
abbrev B2S : Shape := ⟨2, ![1, 256]⟩

/-- Batch entry `b` as a slab: channel `c`, position `p = 56·h + w`. -/
def slab (x : XS.Idx → EReal) (b : Fin 32) (c : Fin 256) (p : Fin 3136) : EReal :=
  x (ix4 b c (⟨p.val / 56, by have := p.isLt; omega⟩ : Fin 56) (⟨p.val % 56, by have := p.isLt; omega⟩ : Fin 56))

def W1of (w1 : W1S.Idx → EReal) (c : Fin 256) (j : Fin 16) : EReal := w1 (ix2 c j)
def B1of (b1 : B1S.Idx → EReal) (j : Fin 16) : EReal := b1 (ix2 (0 : Fin 1) j)
def W2of (w2 : W2S.Idx → EReal) (j : Fin 16) (c : Fin 256) : EReal := w2 (ix2 j c)
def B2of (b2 : B2S.Idx → EReal) (c : Fin 256) : EReal := b2 (ix2 (0 : Fin 1) c)

/-- The gate of batch entry `b`, channel `c`, in the folded arrangement … -/
def gateFolded (x : XS.Idx → EReal) (w1 : W1S.Idx → EReal) (b1 : B1S.Idx → EReal) (w2 : W2S.Idx → EReal)
    (b2 : B2S.Idx → EReal) (b : Fin 32) (c : Fin 256) : EReal :=
  gateCol (hidFolded κ z0 (slab x b) (W1of w1) (B1of b1)) (W2of w2) (B2of b2) c

/-- … and in the pooled one. -/
def gatePooled (x : XS.Idx → EReal) (w1 : W1S.Idx → EReal) (b1 : B1S.Idx → EReal) (w2 : W2S.Idx → EReal)
    (b2 : B2S.Idx → EReal) (b : Fin 32) (c : Fin 256) : EReal :=
  gateRow (hidPooled κ z0 (slab x b) (W1of w1) (B1of b1)) (W2of w2) (B2of b2) c

/-- The scaled block: every entry times its channel's gate. -/
def outFolded (x : XS.Idx → EReal) (w1 : W1S.Idx → EReal) (b1 : B1S.Idx → EReal) (w2 : W2S.Idx → EReal)
    (b2 : B2S.Idx → EReal) : XS.Idx → EReal :=
  fun i => x i * gateFolded x w1 b1 w2 b2 (i 0) (i 1)

def outPooled (x : XS.Idx → EReal) (w1 : W1S.Idx → EReal) (b1 : B1S.Idx → EReal) (w2 : W2S.Idx → EReal)
    (b2 : B2S.Idx → EReal) : XS.Idx → EReal :=
  fun i => x i * gatePooled x w1 b1 w2 b2 (i 0) (i 1)

/-- For real `x` and `w1` the two arrangements give one array. -/
theorem out_eq (x : XS.Idx → EReal) (w1 : W1S.Idx → EReal) (b1 : B1S.Idx → EReal) (w2 : W2S.Idx → EReal)
    (b2 : B2S.Idx → EReal) (hx : ∀ i, ∃ r : ℝ, x i = r) (hw : ∀ i, ∃ r : ℝ, w1 i = r) :
    outFolded x w1 b1 w2 b2 = outPooled x w1 b1 w2 b2 := by
  funext i
  unfold outFolded outPooled gateFolded gatePooled
  rw [hid_eq κ z0 (slab x (i 0)) (W1of w1) (B1of b1) κ_real (fun c p => hx _) (fun c j => hw _), gate_eq]

end Cert.Excite

end
-- ==== Proof.LibDense.lean ====
/-
  A plain matrix product read at an index.

  For `l : [A, K]` and `r : [K, B]` the product with dimension numbers "contract axis 1 of the left with axis 0 of the
  right, no batch axes" — what `jnp.dot` of two matrices lowers to, on the matrix unit (into a zero accumulator) and on
  the host alike — is, at the ideal instance and at the element `(a, b)`, the exact sum over `k` of
  `l (a, k) · r (k, b)`. General in `A`, `K`, `B` and in the operands' float formats.
-/
import Idealize.ShloMosaic.PureOps.Ideal
import Idealize.ShloMosaic.PureOps.Ideal.Laws
import Idealize.ShloMosaic.Lib.ValueIdx

noncomputable section

open scoped BigOperators

namespace Cert.Lib.Dense

open Idealize.ShloMosaic Idealize.ShloMosaic.ValueIdx

/-- The dimension numbers of `l @ r` for `l : [A, K]`, `r : [K, B]`. -/
abbrev denseDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

section
variable {A K B : Nat} (wf : DotDims.WF ⟨2, ![A, K]⟩ ⟨2, ![K, B]⟩ ⟨2, ![A, B]⟩ [1] [0] [0] [1] [] [])

/-- The left operand's row is the result's row … -/
theorem dense_lhs0 (i : (⟨2, ![A, B]⟩ : Shape).Idx) (q : (denseDims A K B wf).contr.Idx) :
    ((denseDims A K B wf).lhsIdx i q 0).val = (i 0).val := by
  unfold DotDims.lhsIdx
  rw [dif_neg (show ¬(0 : Fin 2) ∈ (denseDims A K B wf).lhsBatch from List.not_mem_nil),
    dif_pos (show (0 : Fin 2) ∈ (denseDims A K B wf).lhsNonContracting from List.mem_singleton.mpr rfl)]
  rfl

/-- … and its column the contraction coordinate. -/
theorem dense_lhs1 (i : (⟨2, ![A, B]⟩ : Shape).Idx) (q : (denseDims A K B wf).contr.Idx) :
    ((denseDims A K B wf).lhsIdx i q 1).val = (q ⟨0, (Nat.one_pos : 0 < 1)⟩).val :=
  (denseDims A K B wf).lhsIdx_val_of_single rfl i q

/-- The right operand's row is the contraction coordinate … -/
theorem dense_rhs0 (i : (⟨2, ![A, B]⟩ : Shape).Idx) (q : (denseDims A K B wf).contr.Idx) :
    ((denseDims A K B wf).rhsIdx i q 0).val = (q ⟨0, (Nat.one_pos : 0 < 1)⟩).val :=
  (denseDims A K B wf).rhsIdx_val_of_single rfl i q

/-- … and its column the result's column. -/
theorem dense_rhs1 (i : (⟨2, ![A, B]⟩ : Shape).Idx) (q : (denseDims A K B wf).contr.Idx) :
    ((denseDims A K B wf).rhsIdx i q 1).val = (i 1).val := by
  unfold DotDims.rhsIdx
  rw [dif_neg (show ¬(1 : Fin 2) ∈ (denseDims A K B wf).rhsBatch from List.not_mem_nil),
    dif_pos (show (1 : Fin 2) ∈ (denseDims A K B wf).rhsNonContracting from List.mem_singleton.mpr rfl)]
  rfl

/-- The contraction's sum, re-indexed by its one coordinate. -/
theorem dense_sum {φ₁ φ₂ : FTy} (l : FVec Ideal ⟨2, ![A, K]⟩ φ₁) (r : FVec Ideal ⟨2, ![K, B]⟩ φ₂) (a : Fin A) (b : Fin B) :
    (∑ q : (denseDims A K B wf).contr.Idx,
        l ((denseDims A K B wf).lhsIdx (ix2 a b) q) * r ((denseDims A K B wf).rhsIdx (ix2 a b) q))
      = ∑ k : Fin K, l (ix2 a k) * r (ix2 k b) := by
  rw [← Equiv.sum_comp (contrEquiv1 (denseDims A K B wf) K rfl rfl).symm]
  refine Finset.sum_congr rfl fun k _ => ?_
  have hk := contrEquiv1_symm_val (denseDims A K B wf) K rfl rfl k
  have el : (denseDims A K B wf).lhsIdx (ix2 a b) ((contrEquiv1 (denseDims A K B wf) K rfl rfl).symm k) = ix2 a k :=
    funext fun x => Fin.ext (by
      match x with
      | ⟨0, _⟩ => exact dense_lhs0 wf _ _
      | ⟨1, _⟩ => exact (dense_lhs1 wf _ _).trans hk)
  have er : (denseDims A K B wf).rhsIdx (ix2 a b) ((contrEquiv1 (denseDims A K B wf) K rfl rfl).symm k) = ix2 k b :=
    funext fun x => Fin.ext (by
      match x with
      | ⟨0, _⟩ => exact (dense_rhs0 wf _ _).trans hk
      | ⟨1, _⟩ => exact dense_rhs1 wf _ _)
  rw [el, er]

/-- THE MATRIX UNIT'S PRODUCT into a zero accumulator, read at `(a, b)`. -/
theorem dense_matmul_apply {φ₁ φ₂ : FTy} (prec : Option ContractPrecision)
    (l : FVec Ideal ⟨2, ![A, K]⟩ φ₁) (r : FVec Ideal ⟨2, ![K, B]⟩ φ₂) (a : Fin A) (b : Fin B) :
    FloatOps.matmul (denseDims A K B wf) prec l r (constant (F := Ideal) ⟨2, ![A, B]⟩ .f32 0x00000000#32) (ix2 a b)
      = ∑ k : Fin K, l (ix2 a k) * r (ix2 k b) := by
  rw [Ideal.matmul_constant_zero_apply]
  exact dense_sum wf l r a b

/-- THE HOST'S PRODUCT, read at `(a, b)`. -/
theorem dense_dotGeneral_apply {φ₁ φ₂ : FTy} (prec : Option ContractPrecision) (sched : HostSchedule)
    (l : FVec Ideal ⟨2, ![A, K]⟩ φ₁) (r : FVec Ideal ⟨2, ![K, B]⟩ φ₂) (a : Fin A) (b : Fin B) :
    FloatOps.dotGeneral (denseDims A K B wf) prec sched l r (ix2 a b) = ∑ k : Fin K, l (ix2 a k) * r (ix2 k b) := by
  rw [Ideal.dotGeneral_apply]
  exact dense_sum wf l r a b

end

end Cert.Lib.Dense

end
-- ==== Proof.LibColumn.lean ====
/-
  The keepdims column forms of two layout operations, read at an index: what a row reduction kept as a column
  (`jnp.sum(…, axis=1, keepdims=True)`) goes through before it meets a matrix again.
-/
import Idealize.ShloMosaic.Lib.Pipeline.Value
import Idealize.ShloMosaic.Lib.ValueIdx

noncomputable section

namespace LibColumn

open Idealize.ShloMosaic Idealize.ShloMosaic.ValueIdx

/-- An `[a]` array cast to the column `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end LibColumn

end
-- ==== Proof.LibReshape4.lean ====
/-
  Row-major re-layouts of a rank-4 array, read at an element.

  An array `[a, b, c, d]` and its two flattened views hold the same entries in the same row-major order:
  * `[a·b, c·d]`: row `i·b + j`, column `k·d + l` is the entry `(i, j, k, l)` — in both directions;
  * `[a, b, c·d]`: `(i, j, k·d + l)` is the entry `(i, j, k, l)` — in both directions.
  Also a row `[1, g]` seen as a column `[g, 1]`, and the index a sum over the second axis of a matrix runs over:
  `p` with the coordinate `k` put back is `(p, k)`.
  General in the extents and the element type.
-/
import Idealize.ShloMosaic.PureOps.Ideal
import Idealize.ShloMosaic.Lib.ValueIdx
import Idealize.ShloMosaic.Lib.Pipeline.Value
import Idealize.ShloMosaic.PureOps.Reduce

noncomputable section

namespace Cert.Lib.Reshape4

open Idealize.ShloMosaic Idealize.ShloMosaic.ValueIdx

variable {α : Type}

/-! ## Both pairs of axes merged: `[a, b, c, d] ↔ [a·b, c·d]` -/

/-- `[a, b, c, d]` seen as `[n, m]` (`m = c·d`): row `i·b + j`, column `k·d + l` reads `(i, j, k, l)`. -/
theorem shapeCast_abcd_nm_apply {a b c d n m : Nat} (x : (⟨4, ![a, b, c, d]⟩ : Shape).Idx → α)
    (h : (⟨4, ![a, b, c, d]⟩ : Shape).ShapeCasts ⟨2, ![n, m]⟩) (hm : m = c * d)
    (i : Fin a) (j : Fin b) (k : Fin c) (l : Fin d) (r : Fin n) (q : Fin m)
    (hr : r.val = i.val * b + j.val) (hq : q.val = k.val * d + l.val) :
    shapeCast ⟨2, ![n, m]⟩ x h (ix2 r q) = x (ix4 i j k l) :=
  shapeCast_apply x h _ _ (by
    rw [Shape.rowMajor_val_four, Shape.rowMajor_val_two]
    show ((i.val * b + j.val) * c + k.val) * d + l.val = r.val * m + q.val
    rw [hr, hq, hm]; ring)

/-- `[n, m]` seen as `[a, b, c, d]`: `(i, j, k, l)` reads row `i·b + j`, column `k·d + l`. -/
theorem shapeCast_nm_abcd_apply {a b c d n m : Nat} (y : (⟨2, ![n, m]⟩ : Shape).Idx → α)
    (h : (⟨2, ![n, m]⟩ : Shape).ShapeCasts ⟨4, ![a, b, c, d]⟩) (hm : m = c * d)
    (i : Fin a) (j : Fin b) (k : Fin c) (l : Fin d) (r : Fin n) (q : Fin m)
    (hr : r.val = i.val * b + j.val) (hq : q.val = k.val * d + l.val) :
    shapeCast ⟨4, ![a, b, c, d]⟩ y h (ix4 i j k l) = y (ix2 r q) :=
  shapeCast_apply y h _ _ (by
    rw [Shape.rowMajor_val_four, Shape.rowMajor_val_two]
    show r.val * m + q.val = ((i.val * b + j.val) * c + k.val) * d + l.val
    rw [hr, hq, hm]; ring)

/-! ## The last two axes merged: `[a, b, c, d] ↔ [a, b, c·d]` -/

/-- `[a, b, c, d]` seen as `[a, b, m]` (`m = c·d`): `(i, j, k·d + l)` reads `(i, j, k, l)`. -/
theorem shapeCast_abcd_abm_apply {a b c d m : Nat} (x : (⟨4, ![a, b, c, d]⟩ : Shape).Idx → α)
    (h : (⟨4, ![a, b, c, d]⟩ : Shape).ShapeCasts ⟨3, ![a, b, m]⟩) (hm : m = c * d)
    (i : Fin a) (j : Fin b) (k : Fin c) (l : Fin d) (q : Fin m) (hq : q.val = k.val * d + l.val) :
    shapeCast ⟨3, ![a, b, m]⟩ x h (ix3 i j q) = x (ix4 i j k l) :=
  shapeCast_apply x h _ _ (by
    rw [Shape.rowMajor_val_four, Shape.rowMajor_val_three]
    show ((i.val * b + j.val) * c + k.val) * d + l.val = (i.val * b + j.val) * m + q.val
    rw [hq, hm]; ring)

/-- `[a, b, m]` seen as `[a, b, c, d]`: `(i, j, k, l)` reads `(i, j, k·d + l)`. -/
theorem shapeCast_abm_abcd_apply {a b c d m : Nat} (y : (⟨3, ![a, b, m]⟩ : Shape).Idx → α)
    (h : (⟨3, ![a, b, m]⟩ : Shape).ShapeCasts ⟨4, ![a, b, c, d]⟩) (hm : m = c * d)
    (i : Fin a) (j : Fin b) (k : Fin c) (l : Fin d) (q : Fin m) (hq : q.val = k.val * d + l.val) :
    shapeCast ⟨4, ![a, b, c, d]⟩ y h (ix4 i j k l) = y (ix3 i j q) :=
  shapeCast_apply y h _ _ (by
    rw [Shape.rowMajor_val_four, Shape.rowMajor_val_three]
    show (i.val * b + j.val) * m + q.val = ((i.val * b + j.val) * c + k.val) * d + l.val
    rw [hq, hm]; ring)

/-! ## A row as a column -/

/-- A row `[1, g]` seen as a column `[g, 1]` reads, at `(p, u)`, the row's entry `p`. -/
theorem shapeCast_row_col_apply {g : Nat} (x : (⟨2, ![1, g]⟩ : Shape).Idx → α)
    (h : (⟨2, ![1, g]⟩ : Shape).ShapeCasts ⟨2, ![g, 1]⟩) (p : Fin g) (u : Fin 1) :
    shapeCast ⟨2, ![g, 1]⟩ x h (ix2 p u) = x (ix2 (0 : Fin 1) p) :=
  shapeCast_apply x h _ _ (by
    have hu : u.val = 0 := by omega
    rw [Shape.rowMajor_val_two, Shape.rowMajor_val_two]
    show 0 * g + p.val = p.val * 1 + u.val
    rw [hu, Nat.zero_mul, Nat.zero_add, Nat.mul_one, Nat.add_zero])

/-! ## The index a sum over a matrix's second axis runs over -/

/-- `p` with the coordinate `k` put back on the second axis is `(p, k)`. -/
theorem lift_axis1 {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

end Cert.Lib.Reshape4

end
-- ==== Proof.KernelBody.lean ====
/-
  What the kernel's body stores, read at one element.

  The body sees one batch entry as a matrix `x0 : [256, 3136]` (channel, position) and the weights already laid out
  for it: `x1 : [16, 256]` (the first layer, transposed), `x2 : [16, 1]`, `x3 : [256, 16]` (the second layer,
  transposed), `x4 : [256, 1]`. It forms the first layer at every position (a product over channels), sums the
  positions of each hidden row, scales by `κ`, adds the bias and clamps at zero: the hidden column. The second
  product, its bias and the logistic function give one gate per channel, and the stored element `(c, p)` is
  `x0 (c, p)` times the gate of channel `c` — the folded arrangement of `Cert.Excite`.
-/
import proofs.«115852_g2000109499308976_pallasbulk_549_2_alg».proof.Proof.Gen.KernelIdeal.Skeleton
import proofs.«115852_g2000109499308976_pallasbulk_549_2_alg».proof.Proof.Excite
import proofs.«115852_g2000109499308976_pallasbulk_549_2_alg».proof.Proof.LibDense
import proofs.«115852_g2000109499308976_pallasbulk_549_2_alg».proof.Proof.LibColumn
import proofs.«115852_g2000109499308976_pallasbulk_549_2_alg».proof.Proof.LibReshape4
import Idealize.ShloMosaic.PureOps.Ideal.Laws
import Idealize.ShloMosaic.Lib.Pipeline.Value
import Idealize.ShloMosaic.Lib.ValueIdx

noncomputable section

open scoped BigOperators

namespace Cert.KernelIdeal.Body

open Idealize.ShloMosaic Idealize.ShloMosaic.ValueIdx Cert.KernelIdeal Cert.Excite

/-- The formats a lane sum is compiled at include f32, and the sum starts from the zero pattern. -/
theorem fmt32 : FKind.Formats FTy.f32 := .inl rfl
theorem acc0 : (0x00000000#32 : BitVec FTy.f32.bits) = FKind.add.neutral FTy.f32 fmt32 := rfl

/-- The logistic function acts entry by entry. -/
theorem logistic_apply {s : Shape} {φ : FTy} (v : FVec Ideal s φ) (i : s.Idx) : logistic v i = Ideal.logistic (v i) := rfl

/-! ## The stages over plain vectors -/

/-- The first product at `(j, p)`: the sum over channels. -/
theorem firstLayer_apply (w : FVec Ideal S16x256 .f32) (x : FVec Ideal S256x3136 .f32) (j : Fin 16) (p : Fin 3136) :
    matmul dot_S16x256_S256x3136_S16x3136_1_0_0_1_n_n none w x (constant (F := Ideal) S16x3136 .f32 0x00000000#32) (ix2 j p)
      = ∑ c : Fin 256, w (ix2 j c) * x (ix2 c p) :=
  Cert.Lib.Dense.dense_matmul_apply (A := 16) (K := 256) (B := 3136) _ none w x j p

/-- The second product at `(c, 0)`: the sum over the hidden row. -/
theorem secondLayer_apply (w : FVec Ideal S256x16 .f32) (hcol : FVec Ideal S16x1 .f32) (c : Fin 256) (u : Fin 1) :
    matmul dot_S256x16_S16x1_S256x1_1_0_0_1_n_n none w hcol (constant (F := Ideal) S256x1 .f32 0x00000000#32) (ix2 c u)
      = ∑ j : Fin 16, w (ix2 c j) * hcol (ix2 j u) :=
  Cert.Lib.Dense.dense_matmul_apply (A := 256) (K := 16) (B := 1) _ none w hcol c u

/-- A row sum kept as a column: entry `(j, 0)` is the sum of row `j`. -/
theorem rowSum_col_apply (g : FVec Ideal S16x3136 .f32) (h : S16x3136.Reduces [1] S16) (hc : S16.ShapeCasts S16x1)
    (j : Fin 16) (u : Fin 1) :
    shapeCast S16x1 (multiReduction .add [1] S16 g 0x00000000#32 h fmt32 acc0) hc (ix2 j u) = ∑ p : Fin 3136, g (ix2 j p) :=
  (LibColumn.shapeCast_a_a1_apply _ hc j u).trans
    ((Ideal.multiReduction_add_single g _ h fmt32 acc0 (ix1 j)).trans
      (Finset.sum_congr rfl fun k _ => congrArg g (Cert.Lib.Reshape4.lift_axis1 h j k)))

/-! ## The body's values -/

section
variable (x0 : FVec Ideal S256x3136 .f32) (x1 : FVec Ideal S16x256 .f32) (x2 : FVec Ideal S16x1 .f32)
  (x3 : FVec Ideal S256x16 .f32) (x4 : FVec Ideal S256x1 .f32)

/-- The slab and the weights as the mathematics reads them. -/
def X : Fin 256 → Fin 3136 → EReal := fun c p => x0 (ix2 c p)
def W1 : Fin 256 → Fin 16 → EReal := fun c j => x1 (ix2 j c)
def B1 : Fin 16 → EReal := fun j => x2 (ix2 j (0 : Fin 1))
def W2 : Fin 16 → Fin 256 → EReal := fun j c => x3 (ix2 c j)
def B2 : Fin 256 → EReal := fun c => x4 (ix2 c (0 : Fin 1))

/-- The hidden column as the body computes it. -/
def hidV : FVec Ideal S16x1 .f32 :=
  maximumf
    (addf
      (mulf
        (shapeCast S16x1
          (multiReduction .add [1] S16
            (matmul dot_S16x256_S256x3136_S16x3136_1_0_0_1_n_n none (shapeCast S16x256 x1 Gen.shapeCasts_S16x256_S16x256)
              (shapeCast S256x3136 x0 Gen.shapeCasts_S256x3136_S256x3136) (constant S16x3136 .f32 0x00000000#32))
            0x00000000#32 Gen.reduces_S16x3136_S16 fmt32 acc0)
          Gen.shapeCasts_S16_S16x1)
        (broadcast S16x1 (Scalar.ofBits .f32 0x39A72F05#32)))
      (shapeCast S16x1 x2 Gen.shapeCasts_S16x1_S16x1))
    (broadcast S16x1 (Scalar.ofBits .f32 0x00000000#32))

/-- The gate column as the body computes it. -/
def gateV : FVec Ideal S256x1 .f32 :=
  logistic
    (addf
      (matmul dot_S256x16_S16x1_S256x1_1_0_0_1_n_n none (shapeCast S256x16 x3 Gen.shapeCasts_S256x16_S256x16) (hidV x0 x1 x2)
        (constant S256x1 .f32 0x00000000#32))
      (shapeCast S256x1 x4 Gen.shapeCasts_S256x1_S256x1))

/-- The stored block is the slab times the gate column repeated along the positions: the body's text, its
    intermediate values named. -/
theorem pay_eq : Gen.k0_pay1 (F := Ideal) x0 x1 x2 x3 x4
    = mulf (shapeCast S256x3136 x0 Gen.shapeCasts_S256x3136_S256x3136)
        (broadcastTo S256x3136 (gateV x0 x1 x2 x3 x4) Gen.broadcasts_S256x1_S256x3136) := rfl

/-- The hidden column's entry `j` is the folded hidden row of the mathematics. -/
theorem hidV_apply (j : Fin 16) :
    hidV x0 x1 x2 (ix2 j (0 : Fin 1)) = hidFolded κ z0 (X x0) (W1 x1) (B1 x2) j := by
  unfold hidV hidFolded
  rw [maximumf_apply, addf_apply, mulf_apply, broadcast_apply, broadcast_apply, rowSum_col_apply, shapeCast_self,
    shapeCast_self, shapeCast_self]
  simp only [firstLayer_apply]
  rfl

/-- The gate column's entry `c` is the gate of channel `c`. -/
theorem gateV_apply (c : Fin 256) :
    gateV x0 x1 x2 x3 x4 (ix2 c (0 : Fin 1)) = gateCol (hidFolded κ z0 (X x0) (W1 x1) (B1 x2)) (W2 x3) (B2 x4) c := by
  unfold gateV gateCol
  rw [logistic_apply, addf_apply, secondLayer_apply, shapeCast_self, shapeCast_self]
  simp only [hidV_apply]
  rfl

/-- THE STORED ELEMENT `(c, p)`: the slab's entry times its channel's gate. -/
theorem pay_apply (c : Fin 256) (p : Fin 3136) :
    Gen.k0_pay1 (F := Ideal) x0 x1 x2 x3 x4 (ix2 c p)
      = x0 (ix2 c p) * gateCol (hidFolded κ z0 (X x0) (W1 x1) (B1 x2)) (W2 x3) (B2 x4) c := by
  rw [pay_eq, mulf_apply, shapeCast_self, LibColumn.broadcastTo_a1_ab_apply, gateV_apply]

end

end Cert.KernelIdeal.Body

end
-- ==== Proof.KernelArray.lean ====
/-
  The array the kernel's program returns.

  The program views `x : [32, 256, 56, 56]` as a matrix `[8192, 3136]` (row `256·b + c`, column `56·h + w`), lays the
  weights out for the body, runs the body once per batch entry `t` on rows `256·t … 256·t + 255`, and views the
  resulting matrix as `[32, 256, 56, 56]` again. Block `t` of the matrix the region leaves is the block of ONE
  whole-matrix function (`scaled`): every entry times the gate of its own row's channel, the gate computed from the 256
  rows of the same batch entry. The 32 blocks tile the matrix, so the region leaves exactly that function.
-/
import proofs.«115852_g2000109499308976_pallasbulk_549_2_alg».proof.Proof.Gen.KernelIdeal.Frame
import proofs.«115852_g2000109499308976_pallasbulk_549_2_alg».proof.Proof.KernelBody
import Idealize.ShloMosaic.Lib.Pipeline.Value
import Idealize.ShloMosaic.Lib.StableHlo.Run

set_option maxRecDepth 16384

noncomputable section

open scoped BigOperators

namespace Cert.KernelIdeal.Arr

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.Excite

/-! ## The whole-matrix function -/

/-- Row `256·b + c` of the matrix. -/
def rowOf (b : Fin 32) (c : Fin 256) : Fin 8192 := ⟨b.val * 256 + c.val, by have := b.isLt; have := c.isLt; omega⟩

/-- The batch entry and the channel of a row. -/
def batchOf (r : Fin 8192) : Fin 32 := ⟨r.val / 256, by have := r.isLt; omega⟩
def chanOf (r : Fin 8192) : Fin 256 := ⟨r.val % 256, by omega⟩

theorem batchOf_rowOf (b : Fin 32) (c : Fin 256) : batchOf (rowOf b c) = b := by
  apply Fin.ext; show (b.val * 256 + c.val) / 256 = b.val; have := c.isLt; omega
theorem chanOf_rowOf (b : Fin 32) (c : Fin 256) : chanOf (rowOf b c) = c := by
  apply Fin.ext; show (b.val * 256 + c.val) % 256 = c.val; have := c.isLt; omega

/-- What the region leaves, as one function of the five arrays it finds: entry `(r, p)` is the matrix's entry times
    the gate of row `r`'s channel, computed from the 256 rows of row `r`'s batch entry. -/
def scaled (A0 : FVec Ideal S8192x3136 .f32) (A1 : FVec Ideal S16x256 .f32) (A2 : FVec Ideal S16x1 .f32)
    (A3 : FVec Ideal S256x16 .f32) (A4 : FVec Ideal S256x1 .f32) : FVec Ideal S8192x3136 .f32 :=
  fun i => A0 i * gateCol (hidFolded κ z0 (fun c p => A0 (ix2 (rowOf (batchOf (i 0)) c) p)) (Body.W1 A1) (Body.B1 A2))
    (Body.W2 A3) (Body.B2 A4) (chanOf (i 0))

/-- ONE BLOCK: a body run on the 256 rows of batch entry `tb`, with the weights as the region finds them, stores at
    `y` the whole-matrix function's entry at row `256·tb + y₀`, column `y₁`. -/
theorem block_point (A0 : FVec Ideal S8192x3136 .f32) (A1 : FVec Ideal S16x256 .f32) (A2 : FVec Ideal S16x1 .f32)
    (A3 : FVec Ideal S256x16 .f32) (A4 : FVec Ideal S256x1 .f32)
    (x0 : FVec Ideal S256x3136 .f32) (x1 : FVec Ideal S16x256 .f32) (x2 : FVec Ideal S16x1 .f32)
    (x3 : FVec Ideal S256x16 .f32) (x4 : FVec Ideal S256x1 .f32) (tb : Fin 32)
    (h0 : ∀ (c : Fin 256) (p : Fin 3136), x0 (ix2 c p) = A0 (ix2 (rowOf tb c) p))
    (h1 : x1 = A1) (h2 : x2 = A2) (h3 : x3 = A3) (h4 : x4 = A4)
    (c' : Fin 256) (p : Fin 3136) :
    Gen.k0_pay1 (F := Ideal) x0 x1 x2 x3 x4 (ix2 c' p) = scaled A0 A1 A2 A3 A4 (ix2 (rowOf tb c') p) := by
  subst h1 h2 h3 h4
  rw [Body.pay_apply]
  unfold scaled
  have eX : Body.X x0 = fun c p => A0 (ix2 (rowOf tb c) p) := funext fun c => funext fun p => h0 c p
  have eb : batchOf ((ix2 (rowOf tb c') p : S8192x3136.Idx) 0) = tb := batchOf_rowOf tb c'
  have ec : chanOf ((ix2 (rowOf tb c') p : S8192x3136.Idx) 0) = c' := chanOf_rowOf tb c'
  rw [eX, eb, ec, h0]

/-! ## The arrays as the region finds them -/

section
variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the two windows that move take block `t` of their first axis, every other
    index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 32 := lt_of_lt_of_eq t.isLt N_0

/-- Window 0's block at point `t` holds rows `256·t …` of the matrix the region finds. -/
theorem blk0 (c : Dev nD) (t : Fin cfg0.N) (c' : Fin 256) (p : Fin 3136) :
    iblk m c 0 t (ix2 c' p) = V m c main_v0 (ix2 (rowOf ⟨t.val, t_lt t⟩ c') p) := by
  obtain ⟨e0, e1, -⟩ := idx_facts t
  show V m c main_v0 (((cfg0.win 0).blk t).view.emb (ix2 c' p)) = V m c main_v0 (ix2 (rowOf ⟨t.val, t_lt t⟩ c') p)
  refine congrArg (V m c main_v0) (funext fun a => Fin.ext ?_)
  match a with
  | ⟨0, _⟩ => show win0_0.index t (0 : Fin 2) * 256 + 1 * c'.val = t.val * 256 + c'.val; omega
  | ⟨1, _⟩ => show win0_0.index t (1 : Fin 2) * 3136 + 1 * p.val = p.val; omega

/-- The weight windows hold their whole arrays at every point. -/
theorem blk1 (c : Dev nD) (t : Fin cfg0.N) : iblk m c 1 t = V m c main_v1 := by
  obtain ⟨-, -, e0, e1, -⟩ := idx_facts t
  funext y
  show V m c main_v1 (((cfg0.win 1).blk t).view.emb y) = V m c main_v1 y
  refine congrArg (V m c main_v1) (funext fun a => Fin.ext ?_)
  match a with
  | ⟨0, _⟩ => show win0_1.index t (0 : Fin 2) * 16 + 1 * (y 0).val = (y 0).val; omega
  | ⟨1, _⟩ => show win0_1.index t (1 : Fin 2) * 256 + 1 * (y 1).val = (y 1).val; omega
theorem blk2 (c : Dev nD) (t : Fin cfg0.N) : iblk m c 2 t = V m c main_v2 := by
  obtain ⟨-, -, -, -, e0, e1, -⟩ := idx_facts t
  funext y
  show V m c main_v2 (((cfg0.win 2).blk t).view.emb y) = V m c main_v2 y
  refine congrArg (V m c main_v2) (funext fun a => Fin.ext ?_)
  match a with
  | ⟨0, _⟩ => show win0_2.index t (0 : Fin 2) * 16 + 1 * (y 0).val = (y 0).val; omega
  | ⟨1, _⟩ => show win0_2.index t (1 : Fin 2) * 1 + 1 * (y 1).val = (y 1).val; omega
theorem blk3 (c : Dev nD) (t : Fin cfg0.N) : iblk m c 3 t = V m c main_v3 := by
  obtain ⟨-, -, -, -, -, -, e0, e1, -⟩ := idx_facts t
  funext y
  show V m c main_v3 (((cfg0.win 3).blk t).view.emb y) = V m c main_v3 y
  refine congrArg (V m c main_v3) (funext fun a => Fin.ext ?_)
  match a with
  | ⟨0, _⟩ => show win0_3.index t (0 : Fin 2) * 256 + 1 * (y 0).val = (y 0).val; omega
  | ⟨1, _⟩ => show win0_3.index t (1 : Fin 2) * 16 + 1 * (y 1).val = (y 1).val; omega
theorem blk4 (c : Dev nD) (t : Fin cfg0.N) : iblk m c 4 t = V m c main_v4 := by
  obtain ⟨-, -, -, -, -, -, -, -, e0, e1, -⟩ := idx_facts t
  funext y
  show V m c main_v4 (((cfg0.win 4).blk t).view.emb y) = V m c main_v4 y
  refine congrArg (V m c main_v4) (funext fun a => Fin.ext ?_)
  match a with
  | ⟨0, _⟩ => show win0_4.index t (0 : Fin 2) * 256 + 1 * (y 0).val = (y 0).val; omega
  | ⟨1, _⟩ => show win0_4.index t (1 : Fin 2) * 1 + 1 * (y 1).val = (y 1).val; omega

/-- The function the region leaves, of the arrays as the region finds them. -/
def left (c : Dev nD) : FVec Ideal S8192x3136 .f32 :=
  scaled (V m c main_v0) (V m c main_v1) (V m c main_v2) (V m c main_v3) (V m c main_v4)

/-- WHAT POINT `t` WRITES BACK is block `t` of that function. -/
theorem flushed_eq (c : Dev nD) (t : Fin cfg0.N) :
    (dats m 0 c).flushed 5 t = ((cfg0.win 5).blk t).view.read (Elt Ideal) (left m c) := by
  show (cfg0.win 5).cut (grid0.coords t) ((dats m 0 c).after 5 t) = _
  rw [after0_5]
  unfold out0_5
  rw [View.canon_unit_zero hz]
  simp only [View.ld_unit_zero (S := S256x3136) hz, View.ld_unit_zero (S := S16x256) hz, View.ld_unit_zero (S := S16x1) hz,
    View.ld_unit_zero (S := S256x16) hz, View.ld_unit_zero (S := S256x1) hz]
  obtain ⟨-, -, -, -, -, -, -, -, -, -, e0, e1⟩ := idx_facts t
  funext y
  obtain ⟨c', p, rfl⟩ : ∃ (c' : Fin 256) (p : Fin 3136), y = ix2 c' p := ⟨y 0, y 1, eq_ix2 y⟩
  show Gen.k0_pay1 (F := Ideal) (iblk m c 0 t) (iblk m c 1 t) (iblk m c 2 t) (iblk m c 3 t) (iblk m c 4 t) (ix2 c' p)
    = left m c (((cfg0.win 5).blk t).view.emb (ix2 c' p))
  have hemb : ((cfg0.win 5).blk t).view.emb (ix2 c' p) = ix2 (rowOf ⟨t.val, t_lt t⟩ c') p := by
    funext a; apply Fin.ext
    match a with
    | ⟨0, _⟩ => show win0_5.index t (0 : Fin 2) * 256 + 1 * c'.val = t.val * 256 + c'.val; omega
    | ⟨1, _⟩ => show win0_5.index t (1 : Fin 2) * 3136 + 1 * p.val = p.val; omega
  rw [hemb]
  exact block_point (V m c main_v0) (V m c main_v1) (V m c main_v2) (V m c main_v3) (V m c main_v4)
    (iblk m c 0 t) (iblk m c 1 t) (iblk m c 2 t) (iblk m c 3 t) (iblk m c 4 t) ⟨t.val, t_lt t⟩
    (blk0 m c t) (blk1 m c t) (blk2 m c t) (blk3 m c t) (blk4 m c t) c' p

/-- An index of the matrix is in point `t`'s block iff each coordinate is in the block's range on its axis. -/
theorem mem_blk (t : Fin cfg0.N) (i : S8192x3136.Idx) :
    i ∈ ((cfg0.win 5).blk t).view.set ↔ ∀ a : Fin 2, win0_5.index t a * S256x3136.size a ≤ (i a).val ∧ (i a).val < win0_5.index t a * S256x3136.size a + S256x3136.size a := by
  show i ∈ ((View.whole main_v5).slice (win0_5.rect t)).set ↔ _
  rw [View.set_slice_whole, Rect.mem_set_unit]
  exact Iff.rfl

/-- The 32 blocks tile the matrix: row `r` is in block `r / 256`. -/
theorem cover (i : S8192x3136.Idx) : ∃ t : Fin cfg0.N, (cfg0.win 5).flush t = true ∧ i ∈ ((cfg0.win 5).blk t).view.set := by
  have hi0 : (i 0).val < 8192 := (i 0).isLt
  have hi1 : (i 1).val < 3136 := (i 1).isLt
  have hN : (i 0).val / 256 < cfg0.N := by show _ < grid0.N; rw [N_0]; omega
  refine ⟨⟨(i 0).val / 256, hN⟩, flush0_5 _, ?_⟩
  obtain ⟨-, -, -, -, -, -, -, -, -, -, e0, e1⟩ := idx_facts ⟨(i 0).val / 256, hN⟩
  rw [mem_blk]
  intro a
  match a with
  | ⟨0, _⟩ =>
    show win0_5.index ⟨(i 0).val / 256, hN⟩ (0 : Fin 2) * 256 ≤ (i 0).val ∧ (i 0).val < win0_5.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_5.index ⟨(i 0).val / 256, hN⟩ (1 : Fin 2) * 3136 ≤ (i 1).val ∧ (i 1).val < win0_5.index ⟨(i 0).val / 256, hN⟩ (1 : Fin 2) * 3136 + 3136
    rw [e1]; omega

/-- THE MATRIX after the region. -/
theorem final (c : Dev nD) : (dats m 0 c).arrAt 5 cfg0.N = left m c :=
  (dats m 0 c).arrAt_eq_of_cover 5 (left m c) (fun t _ => flushed_eq m c t) cover

end

end Cert.KernelIdeal.Arr

end
-- ==== Proof.LibHostLayout.lean ====
/-
  The host's re-layouts of the weights and biases, read at an element.

  Each weight matrix `W : [H, K]` reaches its kernel transposed, `[K, H]`, and narrowed to bf16 — the identity on extended
  reals —, so its entry `(k, j)` is `W (j, k)`. Each bias `b : [H]` reaches its kernel as a row `[1, H]`, whose entry
  `(0, j)` is `b j`.
-/
import Idealize.ShloMosaic.Lib.Pipeline.Value
import Idealize.ShloMosaic.Lib.ValueIdx
import Idealize.ShloMosaic.PureOps.Ideal

noncomputable section

namespace Cert.Lib.HostLayout

open Idealize.ShloMosaic Idealize.ShloMosaic.ValueIdx

/-- A matrix `[H, K]` transposed to `[K, H]` reads, at `(k, j)`, the entry `(j, k)`. -/
theorem transpose_apply₂ {α : Type} {H K : ℕ} (W : (⟨2, ![H, K]⟩ : Shape).Idx → α)
    (h : (⟨2, ![H, K]⟩ : Shape).Transposes [1, 0] ⟨2, ![K, H]⟩) (k : Fin K) (j : Fin H) :
    transpose ⟨2, ![K, H]⟩ [1, 0] W h (ix2 k j) = W (ix2 j k) :=
  transpose_apply [1, 0] W h (ix2 k j) (ix2 j k) (fun b => match b with
    | ⟨0, _⟩ => rfl
    | ⟨1, _⟩ => rfl)

/-- The transposed matrix narrowed to bf16 reads the same entry: the narrowing is the identity at the ideal instance. -/
theorem truncf_transpose_apply {H K : ℕ} (W : FVec Ideal ⟨2, ![H, K]⟩ .f32)
    (h : (⟨2, ![H, K]⟩ : Shape).Transposes [1, 0] ⟨2, ![K, H]⟩) (ht : FTy.bf16.bits < FTy.f32.bits) (k : Fin K) (j : Fin H) :
    truncf .bf16 (transpose ⟨2, ![K, H]⟩ [1, 0] W h) ht (ix2 k j) = W (ix2 j k) :=
  transpose_apply₂ W h k j

/-- A flat `[b]` array reshaped to a row `[1, b]` reads, at `(u, c)`, the flat entry `c`. -/
theorem shapeCast_row_apply {α : Type} {b : ℕ} (x : (⟨1, ![b]⟩ : Shape).Idx → α)
    (h : (⟨1, ![b]⟩ : Shape).ShapeCasts ⟨2, ![1, b]⟩) (u : Fin 1) (c : Fin b) :
    shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu, Nat.zero_mul, Nat.zero_add])

end Cert.Lib.HostLayout

end
-- ==== Proof.KernelRead.lean ====
/-
  The kernel's program as one function of its arguments, and that function read entry by entry.

  The program's result is the matrix function `Arr.scaled` of the re-laid-out arguments, viewed as `[32, 256, 56, 56]`.
  Entry `(b, c, h, w)` of the result is entry (row `256·b + c`, column `56·h + w`) of the matrix; the matrix's rows
  `256·b + c'` are the slab of batch entry `b`; the transposed weights and the column biases read back the given weights
  and biases. So the result is the folded arrangement of `Cert.Excite`, of the arguments themselves.
-/
import proofs.«115852_g2000109499308976_pallasbulk_549_2_alg».proof.Proof.KernelArray
import proofs.«115852_g2000109499308976_pallasbulk_549_2_alg».proof.Proof.LibHostLayout
import proofs.«115852_g2000109499308976_pallasbulk_549_2_alg».proof.Proof.LibReshape4

noncomputable section

open scoped BigOperators

namespace Cert.KernelIdeal.Read

open Idealize.ShloMosaic Idealize.ShloMosaic.ValueIdx
open Cert.KernelIdeal Cert.Excite Cert.KernelIdeal.Arr

/-- The program's result as the operations' composed term of the arguments. -/
def result (x : FVec Ideal S32x256x56x56 .f32) (w1 : FVec Ideal S256x16 .f32) (b1 : FVec Ideal S1x16 .f32)
    (w2 : FVec Ideal S16x256 .f32) (b2 : FVec Ideal S1x256 .f32) : FVec Ideal S32x256x56x56 .f32 :=
  shapeCast S32x256x56x56
    (scaled (shapeCast S8192x3136 x Gen.shapeCasts_S32x256x56x56_S8192x3136)
      (transpose S16x256 [1, 0] w1 Gen.transposes_S256x16_S16x256_1_0)
      (shapeCast S16x1 b1 Gen.shapeCasts_S1x16_S16x1)
      (transpose S256x16 [1, 0] w2 Gen.transposes_S16x256_S256x16_1_0)
      (shapeCast S256x1 b2 Gen.shapeCasts_S1x256_S256x1))
    Gen.shapeCasts_S8192x3136_S32x256x56x56

/-- Position `56·h + w`. -/
def posOf (h w : Fin 56) : Fin 3136 := ⟨h.val * 56 + w.val, by have := h.isLt; have := w.isLt; omega⟩

section
variable (x : FVec Ideal S32x256x56x56 .f32) (w1 : FVec Ideal S256x16 .f32) (b1 : FVec Ideal S1x16 .f32)
  (w2 : FVec Ideal S16x256 .f32) (b2 : FVec Ideal S1x256 .f32)

/-- The matrix view at row `256·b + c`, column `56·h + w`. -/
theorem mat_apply (b : Fin 32) (c : Fin 256) (h w : Fin 56) :
    shapeCast S8192x3136 x Gen.shapeCasts_S32x256x56x56_S8192x3136 (ix2 (rowOf b c) (posOf h w)) = x (ix4 b c h w) :=
  Cert.Lib.Reshape4.shapeCast_abcd_nm_apply (a := 32) (b := 256) (c := 56) (d := 56) (n := 8192) (m := 3136) x _ rfl b c h w
    (rowOf b c) (posOf h w) rfl rfl

/-- The rows of batch entry `b` in the matrix view are its slab. -/
theorem mat_slab (b : Fin 32) :
    (fun (c : Fin 256) (p : Fin 3136) => shapeCast S8192x3136 x Gen.shapeCasts_S32x256x56x56_S8192x3136 (ix2 (rowOf b c) p))
      = slab x b := by
  funext c p
  have hp := p.isLt
  exact Cert.Lib.Reshape4.shapeCast_abcd_nm_apply (a := 32) (b := 256) (c := 56) (d := 56) (n := 8192) (m := 3136) x _ rfl b c
    (⟨p.val / 56, by omega⟩ : Fin 56) (⟨p.val % 56, by omega⟩ : Fin 56) (rowOf b c) p rfl
    (by show p.val = p.val / 56 * 56 + p.val % 56; omega)

/-- The weights and biases as the body reads them are the given ones. -/
theorem w1_read : Body.W1 (transpose S16x256 [1, 0] w1 Gen.transposes_S256x16_S16x256_1_0) = W1of w1 := by
  funext c j
  exact Cert.Lib.HostLayout.transpose_apply₂ (H := 256) (K := 16) w1 _ j c
theorem b1_read : Body.B1 (shapeCast S16x1 b1 Gen.shapeCasts_S1x16_S16x1) = B1of b1 := by
  funext j
  exact Cert.Lib.Reshape4.shapeCast_row_col_apply (g := 16) b1 _ j 0
theorem w2_read : Body.W2 (transpose S256x16 [1, 0] w2 Gen.transposes_S16x256_S256x16_1_0) = W2of w2 := by
  funext j c
  exact Cert.Lib.HostLayout.transpose_apply₂ (H := 16) (K := 256) w2 _ c j
theorem b2_read : Body.B2 (shapeCast S256x1 b2 Gen.shapeCasts_S1x256_S256x1) = B2of b2 := by
  funext c
  exact Cert.Lib.Reshape4.shapeCast_row_col_apply (g := 256) b2 _ c 0

/-- THE RESULT, entry by entry: the folded arrangement of the arguments. -/
theorem result_eq : result x w1 b1 w2 b2 = outFolded x w1 b1 w2 b2 := by
  funext i
  obtain ⟨b, c, h, w, rfl⟩ : ∃ (b : Fin 32) (c : Fin 256) (h w : Fin 56), i = ix4 b c h w := ⟨i 0, i 1, i 2, i 3, eq_ix4 i⟩
  unfold result
  rw [Cert.Lib.Reshape4.shapeCast_nm_abcd_apply (a := 32) (b := 256) (c := 56) (d := 56) (n := 8192) (m := 3136) _ _ rfl b c h w
    (rowOf b c) (posOf h w) rfl rfl]
  unfold scaled
  have eb : batchOf ((ix2 (rowOf b c) (posOf h w) : S8192x3136.Idx) 0) = b := batchOf_rowOf b c
  have ec : chanOf ((ix2 (rowOf b c) (posOf h w) : S8192x3136.Idx) 0) = c := chanOf_rowOf b c
  rw [eb, ec, mat_apply, mat_slab, w1_read, b1_read, w2_read, b2_read]
  rfl

end

end Cert.KernelIdeal.Read

end
-- ==== Proof.KernelRun.lean ====
/-
  The kernel program's run, with its result named.

  Every weakly fair execution of the program ends with the result array at `Read.result` of the argument arrays and
  the arguments unchanged: the host lines before the region lay the arguments out (a matrix view, two transposes, two
  column views), the region leaves the whole-matrix function of those (`Arr.final`), and the host line after it views
  the matrix as `[32, 256, 56, 56]`.
-/
import proofs.«115852_g2000109499308976_pallasbulk_549_2_alg».proof.Proof.KernelRead

set_option maxRecDepth 16384

noncomputable section

namespace Cert.KernelIdeal.Run

open Idealize.ShloMosaic Idealize.ShloMosaic.TcCoe Idealize.ShloMosaic.Tactic Idealize.ShloMosaic.ValueIdx
open Idealize.SL.Sem Idealize.ShloMosaic.StableHlo
open Idealize.ShloMosaic.Pipeline (Dat)
open Cert.KernelIdeal Cert.KernelIdeal.Gen Cert.Excite

variable (m : (ℓ : Loc nD τ sig) → Buf (Elt Ideal) ℓ) (ρ : Dev nD → PrngReg)

/-! ## The arrays the region finds -/

theorem V_v0 (c : Dev nD) : (V m c main_v0 : FVec Ideal S8192x3136 .f32)
    = shapeCast S8192x3136 (m ((c : Thread nD τ).loc main_arg0) : FVec Ideal S32x256x56x56 .f32) Gen.shapeCasts_S32x256x56x56_S8192x3136 := by
  show StableHlo.after hostOps0 (fun b => m (c, b)) (Proc.devRef .tc main_v0) = _
  after_results <;> rfl
theorem V_v1 (c : Dev nD) : (V m c main_v1 : FVec Ideal S16x256 .f32)
    = transpose S16x256 [1, 0] (m ((c : Thread nD τ).loc main_arg1) : FVec Ideal S256x16 .f32) Gen.transposes_S256x16_S16x256_1_0 := by
  show StableHlo.after hostOps0 (fun b => m (c, b)) (Proc.devRef .tc main_v1) = _
  after_results <;> rfl
theorem V_v2 (c : Dev nD) : (V m c main_v2 : FVec Ideal S16x1 .f32)
    = shapeCast S16x1 (m ((c : Thread nD τ).loc main_arg2) : FVec Ideal S1x16 .f32) Gen.shapeCasts_S1x16_S16x1 := by
  show StableHlo.after hostOps0 (fun b => m (c, b)) (Proc.devRef .tc main_v2) = _
  after_results <;> rfl
theorem V_v3 (c : Dev nD) : (V m c main_v3 : FVec Ideal S256x16 .f32)
    = transpose S256x16 [1, 0] (m ((c : Thread nD τ).loc main_arg3) : FVec Ideal S16x256 .f32) Gen.transposes_S16x256_S256x16_1_0 := by
  show StableHlo.after hostOps0 (fun b => m (c, b)) (Proc.devRef .tc main_v3) = _
  after_results <;> rfl
theorem V_v4 (c : Dev nD) : (V m c main_v4 : FVec Ideal S256x1 .f32)
    = shapeCast S256x1 (m ((c : Thread nD τ).loc main_arg4) : FVec Ideal S1x256 .f32) Gen.shapeCasts_S1x256_S256x1 := by
  show StableHlo.after hostOps0 (fun b => m (c, b)) (Proc.devRef .tc main_v4) = _
  after_results <;> rfl

/-- The function the region leaves, of the arguments. -/
theorem left_eq (c : Dev nD) : Arr.left m c
    = Arr.scaled
        (shapeCast S8192x3136 (m ((c : Thread nD τ).loc main_arg0) : FVec Ideal S32x256x56x56 .f32) Gen.shapeCasts_S32x256x56x56_S8192x3136)
        (transpose S16x256 [1, 0] (m ((c : Thread nD τ).loc main_arg1) : FVec Ideal S256x16 .f32) Gen.transposes_S256x16_S16x256_1_0)
        (shapeCast S16x1 (m ((c : Thread nD τ).loc main_arg2) : FVec Ideal S1x16 .f32) Gen.shapeCasts_S1x16_S16x1)
        (transpose S256x16 [1, 0] (m ((c : Thread nD τ).loc main_arg3) : FVec Ideal S16x256 .f32) Gen.transposes_S16x256_S256x16_1_0)
        (shapeCast S256x1 (m ((c : Thread nD τ).loc main_arg4) : FVec Ideal S1x256 .f32) Gen.shapeCasts_S1x256_S256x1) := by
  unfold Arr.left
  rw [V_v0, V_v1, V_v2, V_v3, V_v4]

/-! ## The host line after the region -/

theorem tail_eq (c : Dev nD) :
    Pipeline.afterTail₀ cfgs (dats m) 0 (V0 m) [hostOps1] c main_v6
      = Read.result (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = Arr.left m c :=
    (Pipeline.withArrays_arr spec0 launch0.win.arr_inj c (V0 m c) (fun w => (dats m 0 c).arrAt w cfg0.N) 5).trans (Arr.final m c)
  rw [e, left_eq]
  rfl

/-! ## The run -/

/-- Every weakly fair execution of the program ends with the result at `Read.result` of the arguments and the
    arguments unchanged. -/
theorem run : θ_run defs (onTc (τ := τ) (main (F := Ideal))) ⟨m, fun _ => 0, ρ⟩ (fun r => ∀ c : Dev nD,
      r.2.mem ((c.tc : Thread nD τ).loc main_v6)
        = Read.result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.LibLayout3.lean ====
/-
  Rank-3 layout operations read at an element.

  Arrays `[a, b, c]` are read at `(i, j, k)`:
  * two pieces joined along the last axis, or along the middle axis, read the first piece below its extent and the
    second piece, the extent less, from there on (and the same for two matrices joined along their columns);
  * a slice along the last axis from an offset reads the source that far along;
  * `[b, c]` seen as `[1, b, c]` and repeated over `a` leading entries reads `(j, k)` of the operand;
  * `[a, b]` seen as `[a, b, 1]` and repeated `c` times along the last axis reads `(i, j)` of the operand
    (what a sum or maximum over the last axis with the axis kept goes through);
  * the leading two axes merged, `[a, b, c] → [a·b, c]`, and split again: row `i·b + j` is `(i, j)`;
  * the index a reduction over the last axis sums over: `(i, j)` with `k` put back is `(i, j, k)`.
  General in the extents and the element type.
-/
import Idealize.ShloMosaic.PureOps.Ideal
import Idealize.ShloMosaic.Lib.ValueIdx
import Idealize.ShloMosaic.Lib.Pipeline.Value
import Idealize.ShloMosaic.PureOps.Reduce

noncomputable section

namespace Cert.Lib.Layout3

open Idealize.ShloMosaic Idealize.ShloMosaic.ValueIdx

variable {α : Type}

/-! ## Two pieces joined -/

/-- Joined along the LAST axis. -/
theorem concat_axis2_apply {a b c₁ c₂ c : Nat}
    (x₁ : (⟨3, ![a, b, c₁]⟩ : Shape).Idx → α) (x₂ : (⟨3, ![a, b, c₂]⟩ : Shape).Idx → α)
    (h : Shape.Concatenates [(⟨3, ![a, b, c₁]⟩ : Shape), ⟨3, ![a, b, c₂]⟩] ⟨3, ![a, b, c]⟩ 2) (hc : c = c₁ + c₂)
    (i : Fin a) (j : Fin b) (k : Fin c) :
    concatenate ⟨3, ![a, b, c]⟩ 2 [⟨⟨3, ![a, b, c₁]⟩, x₁⟩, ⟨⟨3, ![a, b, c₂]⟩, x₂⟩] h (ix3 i j k)
      = if hk : k.val < c₁ then x₁ (ix3 i j ⟨k.val, hk⟩) else x₂ (ix3 i j ⟨k.val - c₁, by have := k.isLt; omega⟩) := by
  split
  · next hk =>
    exact concatenate_pair_apply_left (2 : Fin 3) x₁ x₂ h (ix3 i j k) rfl (ix3 i j ⟨k.val, hk⟩) (fun ax => by
      match ax with
      | ⟨0, _⟩ => rfl
      | ⟨1, _⟩ => rfl
      | ⟨2, _⟩ => rfl)
  · next hk =>
    refine concatenate_pair_apply_right (2 : Fin 3) x₁ x₂ h (ix3 i j k) rfl rfl
      (ix3 i j ⟨k.val - c₁, by have := k.isLt; omega⟩) (fun ax hax => ?_) ?_
    · match ax with
      | ⟨0, _⟩ => rfl
      | ⟨1, _⟩ => rfl
      | ⟨2, _⟩ => exact absurd rfl hax
    · show k.val - c₁ + c₁ = k.val
      omega

/-- Joined along the MIDDLE axis. -/
theorem concat_axis1_apply {a b₁ b₂ b c : Nat}
    (x₁ : (⟨3, ![a, b₁, c]⟩ : Shape).Idx → α) (x₂ : (⟨3, ![a, b₂, c]⟩ : Shape).Idx → α)
    (h : Shape.Concatenates [(⟨3, ![a, b₁, c]⟩ : Shape), ⟨3, ![a, b₂, c]⟩] ⟨3, ![a, b, c]⟩ 1) (hb : b = b₁ + b₂)
    (i : Fin a) (j : Fin b) (k : Fin c) :
    concatenate ⟨3, ![a, b, c]⟩ 1 [⟨⟨3, ![a, b₁, c]⟩, x₁⟩, ⟨⟨3, ![a, b₂, c]⟩, x₂⟩] h (ix3 i j k)
      = if hj : j.val < b₁ then x₁ (ix3 i ⟨j.val, hj⟩ k) else x₂ (ix3 i ⟨j.val - b₁, by have := j.isLt; omega⟩ k) := by
  split
  · next hj =>
    exact concatenate_pair_apply_left (1 : Fin 3) x₁ x₂ h (ix3 i j k) rfl (ix3 i ⟨j.val, hj⟩ k) (fun ax => by
      match ax with
      | ⟨0, _⟩ => rfl
      | ⟨1, _⟩ => rfl
      | ⟨2, _⟩ => rfl)
  · next hj =>
    refine concatenate_pair_apply_right (1 : Fin 3) x₁ x₂ h (ix3 i j k) rfl rfl
      (ix3 i ⟨j.val - b₁, by have := j.isLt; omega⟩ k) (fun ax hax => ?_) ?_
    · match ax with
      | ⟨0, _⟩ => rfl
      | ⟨1, _⟩ => exact absurd rfl hax
      | ⟨2, _⟩ => rfl
    · show j.val - b₁ + b₁ = j.val
      omega

/-- The rank-2 companion: two matrices joined along their columns. -/
theorem concat2_axis1_apply {a b₁ b₂ b : Nat}
    (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (hb : b = b₁ + b₂)
    (i : Fin a) (j : Fin b) :
    concatenate ⟨2, ![a, b]⟩ 1 [⟨⟨2, ![a, b₁]⟩, x₁⟩, ⟨⟨2, ![a, b₂]⟩, x₂⟩] h (ix2 i j)
      = if hj : j.val < b₁ then x₁ (ix2 i ⟨j.val, hj⟩) else x₂ (ix2 i ⟨j.val - b₁, by have := j.isLt; omega⟩) := by
  split
  · next hj =>
    exact concatenate_pair_apply_left (1 : Fin 2) x₁ x₂ h (ix2 i j) rfl (ix2 i ⟨j.val, hj⟩) (fun ax => by
      match ax with
      | ⟨0, _⟩ => rfl
      | ⟨1, _⟩ => rfl)
  · next hj =>
    refine concatenate_pair_apply_right (1 : Fin 2) x₁ x₂ h (ix2 i j) rfl rfl
      (ix2 i ⟨j.val - b₁, by have := j.isLt; omega⟩) (fun ax hax => ?_) ?_
    · match ax with
      | ⟨0, _⟩ => rfl
      | ⟨1, _⟩ => exact absurd rfl hax
    · show j.val - b₁ + b₁ = j.val
      omega

/-! ## A slice along the last axis -/

/-- Cut along the last axis from `o`: `(i, j, k)` reads the source at `(i, j, o + k)`. -/
theorem slice_axis2_apply {a b c m : Nat} (o : Nat) (X : (⟨3, ![a, b, c]⟩ : Shape).Idx → α)
    (h : (⟨3, ![a, b, c]⟩ : Shape).Slices ![0, 0, o] ⟨3, ![a, b, m]⟩)
    (i : Fin a) (j : Fin b) (k : Fin m) (k' : Fin c) (hk : k'.val = o + k.val) :
    extractStridedSlice ⟨3, ![a, b, m]⟩ ![0, 0, o] X h (ix3 i j k) = X (ix3 i j k') :=
  extractStridedSlice_apply _ _ _ _ _ (fun ax => by
    match ax with
    | ⟨0, _⟩ => exact (Nat.zero_add _).symm
    | ⟨1, _⟩ => exact (Nat.zero_add _).symm
    | ⟨2, _⟩ => exact hk)

/-! ## A matrix repeated over a new leading axis -/

/-- `[1, b, c]` repeated over `a` leading entries reads, at `(i, j, k)`, the operand at `(0, j, k)`. -/
theorem broadcastTo_1bc_abc_apply {a b c : Nat} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-! ## A kept last axis -/

/-- `[a, b]` seen as `[a, b, 1]` reads, at `(i, j, u)`, the operand at `(i, j)`. -/
theorem shapeCast_ab_ab1_apply {a b : Nat} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, b, 1]` repeated `c` times along the last axis reads, at `(i, j, k)`, the operand at `(i, j, 0)`. -/
theorem broadcastTo_ab1_abc_apply {a b c : Nat} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## The leading two axes merged and split -/

/-- `[a, b, c]` seen as `[a·b, c]`: row `i·b + j` reads `(i, j)`. -/
theorem shapeCast_abc_rc_apply {a b c n : Nat} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- `[a·b, c]` seen as `[a, b, c]`: `(i, j)` reads row `i·b + j`. -/
theorem shapeCast_rc_abc_apply {a b c n : Nat} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-! ## The index a reduction over the last axis runs over -/

/-- `(i, j)` with the coordinate `k` put back on the last axis is `(i, j, k)`. -/
theorem lift_axis2 {a b c : Nat} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext ax; apply Fin.ext
  fin_cases ax <;> rfl

end Cert.Lib.Layout3

end
-- ==== Proof.RefBody.lean ====
/-
  What the reference's body stores, read at one element.

  The body sees one batch entry as `x0 : [1, 256, 3136]` (a unit axis, channel, position) and the weights as given:
  `x1 : [256, 16]`, `x2 : [1, 16]`, `x3 : [16, 256]`, `x4 : [1, 256]`. It sums each channel's positions and scales
  by `κ` (the average), takes the first product over channels, adds the bias and clamps at zero: the hidden row. The
  second product, its bias and the logistic function give one gate per channel, and the stored element `(0, c, p)`
  is `x0 (0, c, p)` times the gate of channel `c` — the pooled arrangement of `Cert.Excite`.
-/
import proofs.«115852_g2000109499308976_pallasbulk_549_2_alg».proof.Proof.Gen.ReferenceIdeal.Skeleton
import proofs.«115852_g2000109499308976_pallasbulk_549_2_alg».proof.Proof.Excite
import proofs.«115852_g2000109499308976_pallasbulk_549_2_alg».proof.Proof.LibDense
import proofs.«115852_g2000109499308976_pallasbulk_549_2_alg».proof.Proof.LibLayout3
import Idealize.ShloMosaic.PureOps.Ideal.Laws
import Idealize.ShloMosaic.Lib.Pipeline.Value
import Idealize.ShloMosaic.Lib.ValueIdx

noncomputable section

open scoped BigOperators

namespace Cert.ReferenceIdeal.Body

open Idealize.ShloMosaic Idealize.ShloMosaic.ValueIdx Cert.ReferenceIdeal Cert.Excite

/-- The formats a lane sum is compiled at include f32, and the sum starts from the zero pattern. -/
theorem fmt32 : FKind.Formats FTy.f32 := .inl rfl
theorem acc0 : (0x00000000#32 : BitVec FTy.f32.bits) = FKind.add.neutral FTy.f32 fmt32 := rfl

/-- The logistic function acts entry by entry. -/
theorem logistic_apply {s : Shape} {φ : FTy} (v : FVec Ideal s φ) (i : s.Idx) : logistic v i = Ideal.logistic (v i) := rfl

/-! ## The stages over plain vectors -/

/-- The sum over positions at `(0, c)`. -/
theorem poolSum_apply (g : FVec Ideal S1x256x3136 .f32) (h : S1x256x3136.Reduces [2] S1x256) (c : Fin 256) :
    multiReduction .add [2] S1x256 g 0x00000000#32 h fmt32 acc0 (ix2 (0 : Fin 1) c) = ∑ p : Fin 3136, g (ix3 (0 : Fin 1) c p) :=
  (Ideal.multiReduction_add_single g _ h fmt32 acc0 (ix2 (0 : Fin 1) c)).trans
    (Finset.sum_congr rfl fun k _ => congrArg g (Cert.Lib.Layout3.lift_axis2 h (0 : Fin 1) c k))

/-- The first product at `(u, j)`: the sum over channels. -/
theorem firstLayer_apply (y : FVec Ideal S1x256 .f32) (w : FVec Ideal S256x16 .f32) (u : Fin 1) (j : Fin 16) :
    matmul dot_S1x256_S256x16_S1x16_1_0_0_1_n_n none y w (constant (F := Ideal) S1x16 .f32 0x00000000#32) (ix2 u j)
      = ∑ c : Fin 256, y (ix2 u c) * w (ix2 c j) :=
  Cert.Lib.Dense.dense_matmul_apply (A := 1) (K := 256) (B := 16) _ none y w u j

/-- The second product at `(u, c)`: the sum over the hidden row. -/
theorem secondLayer_apply (hrow : FVec Ideal S1x16 .f32) (w : FVec Ideal S16x256 .f32) (u : Fin 1) (c : Fin 256) :
    matmul dot_S1x16_S16x256_S1x256_1_0_0_1_n_n none hrow w (constant (F := Ideal) S1x256 .f32 0x00000000#32) (ix2 u c)
      = ∑ j : Fin 16, hrow (ix2 u j) * w (ix2 j c) :=
  Cert.Lib.Dense.dense_matmul_apply (A := 1) (K := 16) (B := 256) _ none hrow w u c

/-! ## The body's values -/

section
variable (x0 : FVec Ideal S1x256x3136 .f32) (x1 : FVec Ideal S256x16 .f32) (x2 : FVec Ideal S1x16 .f32)
  (x3 : FVec Ideal S16x256 .f32) (x4 : FVec Ideal S1x256 .f32)

/-- The slab and the weights as the mathematics reads them. -/
def X : Fin 256 → Fin 3136 → EReal := fun c p => x0 (ix3 (0 : Fin 1) c p)
def W1 : Fin 256 → Fin 16 → EReal := fun c j => x1 (ix2 c j)
def B1 : Fin 16 → EReal := fun j => x2 (ix2 (0 : Fin 1) j)
def W2 : Fin 16 → Fin 256 → EReal := fun j c => x3 (ix2 j c)
def B2 : Fin 256 → EReal := fun c => x4 (ix2 (0 : Fin 1) c)

/-- The hidden row as the body computes it. -/
def hidV : FVec Ideal S1x16 .f32 :=
  maximumf
    (addf
      (matmul dot_S1x256_S256x16_S1x16_1_0_0_1_n_n none
        (mulf
          (multiReduction .add [2] S1x256 (shapeCast S1x256x3136 x0 Gen.shapeCasts_S1x256x3136_S1x256x3136) 0x00000000#32
            Gen.reduces_S1x256x3136_S1x256 fmt32 acc0)
          (broadcast S1x256 (Scalar.ofBits .f32 0x39A72F05#32)))
        x1 (constant S1x16 .f32 0x00000000#32))
      x2)
    (broadcast S1x16 (Scalar.ofBits .f32 0x00000000#32))

/-- The gate row as the body computes it. -/
def gateV : FVec Ideal S1x256 .f32 :=
  logistic (addf (matmul dot_S1x16_S16x256_S1x256_1_0_0_1_n_n none (hidV x0 x1 x2) x3 (constant S1x256 .f32 0x00000000#32)) x4)

/-- The stored block is the slab times the gate row repeated along the positions: the body's text, its intermediate
    values named. -/
theorem pay_eq : Gen.k0_pay1 (F := Ideal) x0 x1 x2 x3 x4
    = mulf (shapeCast S1x256x3136 x0 Gen.shapeCasts_S1x256x3136_S1x256x3136)
        (broadcastTo S1x256x3136 (shapeCast S1x256x1 (gateV x0 x1 x2 x3 x4) Gen.shapeCasts_S1x256_S1x256x1)
          Gen.broadcasts_S1x256x1_S1x256x3136) := rfl

/-- The hidden row's entry `j` is the pooled hidden row of the mathematics. -/
theorem hidV_apply (j : Fin 16) :
    hidV x0 x1 x2 (ix2 (0 : Fin 1) j) = hidPooled κ z0 (X x0) (W1 x1) (B1 x2) j := by
  unfold hidV hidPooled
  rw [maximumf_apply, addf_apply, broadcast_apply, firstLayer_apply]
  simp only [mulf_apply, broadcast_apply, shapeCast_self]
  have e : ∀ c : Fin 256, multiReduction FKind.add [2] S1x256 x0 0x00000000#32 Gen.reduces_S1x256x3136_S1x256 fmt32 acc0
      (ix2 (0 : Fin 1) c) = ∑ p : Fin 3136, x0 (ix3 (0 : Fin 1) c p) := fun c => poolSum_apply x0 _ c
  simp only [e]
  rfl

/-- The gate row's entry `c` is the gate of channel `c`. -/
theorem gateV_apply (c : Fin 256) :
    gateV x0 x1 x2 x3 x4 (ix2 (0 : Fin 1) c) = gateRow (hidPooled κ z0 (X x0) (W1 x1) (B1 x2)) (W2 x3) (B2 x4) c := by
  unfold gateV gateRow
  rw [logistic_apply, addf_apply, secondLayer_apply]
  simp only [hidV_apply]
  rfl

/-- THE STORED ELEMENT `(u, c, p)`: the slab's entry times its channel's gate. -/
theorem pay_apply (u : Fin 1) (c : Fin 256) (p : Fin 3136) :
    Gen.k0_pay1 (F := Ideal) x0 x1 x2 x3 x4 (ix3 u c p)
      = x0 (ix3 u c p) * gateRow (hidPooled κ z0 (X x0) (W1 x1) (B1 x2)) (W2 x3) (B2 x4) c := by
  obtain rfl : u = 0 := Subsingleton.elim _ _
  rw [pay_eq, mulf_apply, shapeCast_self, Cert.Lib.Layout3.broadcastTo_ab1_abc_apply, Cert.Lib.Layout3.shapeCast_ab_ab1_apply,
    gateV_apply]

end

end Cert.ReferenceIdeal.Body

end
-- ==== Proof.RefArray.lean ====
/-
  The array the reference's program returns.

  The program views `x : [32, 256, 56, 56]` as `[32, 256, 3136]` (position `56·h + w`), runs the body once per batch
  entry `t` on the slab `(t, ·, ·)` with the weights as given, and views the result as `[32, 256, 56, 56]` again.
  Block `t` of the array the region leaves is the block of ONE whole-array function (`scaled`): every entry times the
  gate of its channel, the gate computed from the slab of the same batch entry. The 32 blocks tile the array, so the
  region leaves exactly that function.
-/
import proofs.«115852_g2000109499308976_pallasbulk_549_2_alg».proof.Proof.Gen.ReferenceIdeal.Frame
import proofs.«115852_g2000109499308976_pallasbulk_549_2_alg».proof.Proof.RefBody
import Idealize.ShloMosaic.Lib.Pipeline.Value
import Idealize.ShloMosaic.Lib.StableHlo.Run

set_option maxRecDepth 16384

noncomputable section

open scoped BigOperators

namespace Cert.ReferenceIdeal.Arr

open Idealize.ShloMosaic Idealize.ShloMosaic.TcCoe Idealize.ShloMosaic.Tactic Idealize.ShloMosaic.ValueIdx
open Idealize.SL.Sem
open Idealize.ShloMosaic.Pipeline (Dat)
open Cert.ReferenceIdeal Cert.ReferenceIdeal.Gen Cert.Excite

/-! ## The whole-array function -/

/-- What the region leaves, as one function of the five arrays it finds: entry `(b, c, p)` is the array's entry times
    the gate of channel `c`, computed from the slab of batch entry `b`. -/
def scaled (A0 : FVec Ideal S32x256x3136 .f32) (A1 : FVec Ideal S256x16 .f32) (A2 : FVec Ideal S1x16 .f32)
    (A3 : FVec Ideal S16x256 .f32) (A4 : FVec Ideal S1x256 .f32) : FVec Ideal S32x256x3136 .f32 :=
  fun i => A0 i * gateRow (hidPooled κ z0 (fun c p => A0 (ix3 (i 0) c p)) (Body.W1 A1) (Body.B1 A2))
    (Body.W2 A3) (Body.B2 A4) (i 1)

/-- ONE BLOCK: a body run on the slab of batch entry `tb`, with the weights as the region finds them, stores at
    `(u, c', p)` the whole-array function's entry at `(tb, c', p)`. -/
theorem block_point (A0 : FVec Ideal S32x256x3136 .f32) (A1 : FVec Ideal S256x16 .f32) (A2 : FVec Ideal S1x16 .f32)
    (A3 : FVec Ideal S16x256 .f32) (A4 : FVec Ideal S1x256 .f32)
    (x0 : FVec Ideal S1x256x3136 .f32) (x1 : FVec Ideal S256x16 .f32) (x2 : FVec Ideal S1x16 .f32)
    (x3 : FVec Ideal S16x256 .f32) (x4 : FVec Ideal S1x256 .f32) (tb : Fin 32)
    (h0 : ∀ (c : Fin 256) (p : Fin 3136), x0 (ix3 (0 : Fin 1) c p) = A0 (ix3 tb c p))
    (h1 : x1 = A1) (h2 : x2 = A2) (h3 : x3 = A3) (h4 : x4 = A4)
    (u : Fin 1) (c' : Fin 256) (p : Fin 3136) :
    Gen.k0_pay1 (F := Ideal) x0 x1 x2 x3 x4 (ix3 u c' p) = scaled A0 A1 A2 A3 A4 (ix3 tb c' p) := by
  subst h1 h2 h3 h4
  obtain rfl : u = 0 := Subsingleton.elim _ _
  rw [Body.pay_apply]
  unfold scaled
  have eX : Body.X x0 = fun c p => A0 (ix3 tb c p) := funext fun c => funext fun p => h0 c p
  rw [eX, h0]

/-! ## The arrays as the region finds them -/

section
variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the two windows that move take block `t` of their first axis, every other
    index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem t_lt (t : Fin cfg0.N) : t.val < 32 := lt_of_lt_of_eq t.isLt N_0

/-- Window 0's block at point `t` holds slab `t` of the array the region finds. -/
theorem blk0 (c : Dev nD) (t : Fin cfg0.N) (c' : Fin 256) (p : Fin 3136) :
    iblk m c 0 t (ix3 (0 : Fin 1) c' p) = V m c main_v0 (ix3 (⟨t.val, t_lt t⟩ : Fin 32) c' p) := by
  obtain ⟨e0, e1, e2, -⟩ := idx_facts t
  show V m c main_v0 (((cfg0.win 0).blk t).view.emb (ix3 (0 : Fin 1) c' p)) = V m c main_v0 (ix3 (⟨t.val, t_lt t⟩ : Fin 32) c' p)
  refine congrArg (V m c main_v0) (funext fun a => Fin.ext ?_)
  match a with
  | ⟨0, _⟩ => show win0_0.index t (0 : Fin 3) * 1 + 1 * 0 = t.val; omega
  | ⟨1, _⟩ => show win0_0.index t (1 : Fin 3) * 256 + 1 * c'.val = c'.val; omega
  | ⟨2, _⟩ => show win0_0.index t (2 : Fin 3) * 3136 + 1 * p.val = p.val; omega

/-- The weight windows hold their whole arrays at every point. -/
theorem blk1 (c : Dev nD) (t : Fin cfg0.N) : iblk m c 1 t = V m c main_arg1 := by
  obtain ⟨-, -, -, e0, e1, -⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 256 + 1 * (y 0).val = (y 0).val; omega
  | ⟨1, _⟩ => show win0_1.index t (1 : Fin 2) * 16 + 1 * (y 1).val = (y 1).val; omega
theorem blk2 (c : Dev nD) (t : Fin cfg0.N) : iblk m c 2 t = V m c main_arg2 := by
  obtain ⟨-, -, -, -, -, e0, e1, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 1 + 1 * (y 0).val = (y 0).val; omega
  | ⟨1, _⟩ => show win0_2.index t (1 : Fin 2) * 16 + 1 * (y 1).val = (y 1).val; omega
theorem blk3 (c : Dev nD) (t : Fin cfg0.N) : iblk m c 3 t = V m c main_arg3 := by
  obtain ⟨-, -, -, -, -, -, -, e0, e1, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 16 + 1 * (y 0).val = (y 0).val; omega
  | ⟨1, _⟩ => show win0_3.index t (1 : Fin 2) * 256 + 1 * (y 1).val = (y 1).val; omega
theorem blk4 (c : Dev nD) (t : Fin cfg0.N) : iblk m c 4 t = V m c main_arg4 := by
  obtain ⟨-, -, -, -, -, -, -, -, -, e0, e1, -⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- The function the region leaves, of the arrays as the region finds them. -/
def left (c : Dev nD) : FVec Ideal S32x256x3136 .f32 :=
  scaled (V m c main_v0) (V m c main_arg1) (V m c main_arg2) (V m c main_arg3) (V m c main_arg4)

/-- WHAT POINT `t` WRITES BACK is block `t` of that function. -/
theorem flushed_eq (c : Dev nD) (t : Fin cfg0.N) :
    (dats m 0 c).flushed 5 t = ((cfg0.win 5).blk t).view.read (Elt Ideal) (left m c) := by
  show (cfg0.win 5).cut (grid0.coords t) ((dats m 0 c).after 5 t) = _
  rw [after0_5]
  unfold out0_5
  rw [View.canon_unit_zero hz3]
  simp only [View.ld_unit_zero (S := S1x256x3136) hz3, View.ld_unit_zero (S := S256x16) hz2, View.ld_unit_zero (S := S1x16) hz2,
    View.ld_unit_zero (S := S16x256) hz2, View.ld_unit_zero (S := S1x256) hz2]
  obtain ⟨-, -, -, -, -, -, -, -, -, -, -, e0, e1, e2⟩ := idx_facts t
  funext y
  obtain ⟨u, c', p, rfl⟩ : ∃ (u : Fin 1) (c' : Fin 256) (p : Fin 3136), y = ix3 u c' p := ⟨y 0, y 1, y 2, eq_ix3 y⟩
  show Gen.k0_pay1 (F := Ideal) (iblk m c 0 t) (iblk m c 1 t) (iblk m c 2 t) (iblk m c 3 t) (iblk m c 4 t) (ix3 u c' p)
    = left m c (((cfg0.win 5).blk t).view.emb (ix3 u c' p))
  have hemb : ((cfg0.win 5).blk t).view.emb (ix3 u c' p) = ix3 (⟨t.val, t_lt t⟩ : Fin 32) c' p := by
    funext a; apply Fin.ext
    match a with
    | ⟨0, _⟩ => show win0_5.index t (0 : Fin 3) * 1 + 1 * u.val = t.val; have := u.isLt; omega
    | ⟨1, _⟩ => show win0_5.index t (1 : Fin 3) * 256 + 1 * c'.val = c'.val; omega
    | ⟨2, _⟩ => show win0_5.index t (2 : Fin 3) * 3136 + 1 * p.val = p.val; omega
  rw [hemb]
  exact block_point (V m c main_v0) (V m c main_arg1) (V m c main_arg2) (V m c main_arg3) (V m c main_arg4)
    (iblk m c 0 t) (iblk m c 1 t) (iblk m c 2 t) (iblk m c 3 t) (iblk m c 4 t) ⟨t.val, t_lt t⟩
    (blk0 m c t) (blk1 m c t) (blk2 m c t) (blk3 m c t) (blk4 m c t) u c' p

/-- An index of the array is in point `t`'s block iff each coordinate is in the block's range on its axis. -/
theorem mem_blk (t : Fin cfg0.N) (i : S32x256x3136.Idx) :
    i ∈ ((cfg0.win 5).blk t).view.set ↔ ∀ a : Fin 3, win0_5.index t a * S1x256x3136.size a ≤ (i a).val ∧ (i a).val < win0_5.index t a * S1x256x3136.size a + S1x256x3136.size a := by
  show i ∈ ((View.whole main_v1).slice (win0_5.rect t)).set ↔ _
  rw [View.set_slice_whole, Rect.mem_set_unit]
  exact Iff.rfl

/-- The 32 blocks tile the array: `(b, c, p)` is in block `b`. -/
theorem cover (i : S32x256x3136.Idx) : ∃ t : Fin cfg0.N, (cfg0.win 5).flush t = true ∧ i ∈ ((cfg0.win 5).blk t).view.set := by
  have hi0 : (i 0).val < 32 := (i 0).isLt
  have hi1 : (i 1).val < 256 := (i 1).isLt
  have hi2 : (i 2).val < 3136 := (i 2).isLt
  have hN : (i 0).val < cfg0.N := by show _ < grid0.N; rw [N_0]; omega
  refine ⟨⟨(i 0).val, hN⟩, flush0_5 _, ?_⟩
  obtain ⟨-, -, -, -, -, -, -, -, -, -, -, e0, e1, e2⟩ := idx_facts ⟨(i 0).val, hN⟩
  rw [mem_blk]
  intro a
  match a with
  | ⟨0, _⟩ =>
    show win0_5.index ⟨(i 0).val, hN⟩ (0 : Fin 3) * 1 ≤ (i 0).val ∧ (i 0).val < win0_5.index ⟨(i 0).val, hN⟩ (0 : Fin 3) * 1 + 1
    rw [e0]; show (i 0).val * 1 ≤ (i 0).val ∧ (i 0).val < (i 0).val * 1 + 1; omega
  | ⟨1, _⟩ =>
    show win0_5.index ⟨(i 0).val, hN⟩ (1 : Fin 3) * 256 ≤ (i 1).val ∧ (i 1).val < win0_5.index ⟨(i 0).val, hN⟩ (1 : Fin 3) * 256 + 256
    rw [e1]; omega
  | ⟨2, _⟩ =>
    show win0_5.index ⟨(i 0).val, hN⟩ (2 : Fin 3) * 3136 ≤ (i 2).val ∧ (i 2).val < win0_5.index ⟨(i 0).val, hN⟩ (2 : Fin 3) * 3136 + 3136
    rw [e2]; omega

/-- THE ARRAY after the region. -/
theorem final (c : Dev nD) : (dats m 0 c).arrAt 5 cfg0.N = left m c :=
  (dats m 0 c).arrAt_eq_of_cover 5 (left m c) (fun t _ => flushed_eq m c t) cover

end

end Cert.ReferenceIdeal.Arr

end
-- ==== Proof.RefRead.lean ====
/-
  The reference's program as one function of its arguments, and that function read entry by entry.

  The program's result is the array function `Arr.scaled` of `x` viewed as `[32, 256, 3136]` and of the weights as
  given, viewed as `[32, 256, 56, 56]` again. Entry `(b, c, h, w)` of the result is entry `(b, c, 56·h + w)`; the view's
  slab `(b, ·, ·)` is the slab of batch entry `b`. So the result is the pooled arrangement of `Cert.Excite`, of the
  arguments themselves.
-/
import proofs.«115852_g2000109499308976_pallasbulk_549_2_alg».proof.Proof.RefArray
import proofs.«115852_g2000109499308976_pallasbulk_549_2_alg».proof.Proof.LibReshape4

noncomputable section

open scoped BigOperators

namespace Cert.ReferenceIdeal.Read

open Idealize.ShloMosaic Idealize.ShloMosaic.ValueIdx
open Cert.ReferenceIdeal Cert.Excite Cert.ReferenceIdeal.Arr

/-- The program's result as the operations' composed term of the arguments. -/
def result (x : FVec Ideal S32x256x56x56 .f32) (w1 : FVec Ideal S256x16 .f32) (b1 : FVec Ideal S1x16 .f32)
    (w2 : FVec Ideal S16x256 .f32) (b2 : FVec Ideal S1x256 .f32) : FVec Ideal S32x256x56x56 .f32 :=
  shapeCast S32x256x56x56
    (scaled (shapeCast S32x256x3136 x Gen.shapeCasts_S32x256x56x56_S32x256x3136) w1 b1 w2 b2)
    Gen.shapeCasts_S32x256x3136_S32x256x56x56

/-- Position `56·h + w`. -/
def posOf (h w : Fin 56) : Fin 3136 := ⟨h.val * 56 + w.val, by have := h.isLt; have := w.isLt; omega⟩

section
variable (x : FVec Ideal S32x256x56x56 .f32) (w1 : FVec Ideal S256x16 .f32) (b1 : FVec Ideal S1x16 .f32)
  (w2 : FVec Ideal S16x256 .f32) (b2 : FVec Ideal S1x256 .f32)

/-- The rank-3 view at `(b, c, 56·h + w)`. -/
theorem view_apply (b : Fin 32) (c : Fin 256) (h w : Fin 56) :
    shapeCast S32x256x3136 x Gen.shapeCasts_S32x256x56x56_S32x256x3136 (ix3 b c (posOf h w)) = x (ix4 b c h w) :=
  Cert.Lib.Reshape4.shapeCast_abcd_abm_apply (a := 32) (b := 256) (c := 56) (d := 56) (m := 3136) x _ rfl b c h w (posOf h w) rfl

/-- The view's slab of batch entry `b` is its slab. -/
theorem view_slab (b : Fin 32) :
    (fun (c : Fin 256) (p : Fin 3136) => shapeCast S32x256x3136 x Gen.shapeCasts_S32x256x56x56_S32x256x3136 (ix3 b c p))
      = slab x b := by
  funext c p
  have hp := p.isLt
  exact Cert.Lib.Reshape4.shapeCast_abcd_abm_apply (a := 32) (b := 256) (c := 56) (d := 56) (m := 3136) x _ rfl b c
    (⟨p.val / 56, by omega⟩ : Fin 56) (⟨p.val % 56, by omega⟩ : Fin 56) p
    (by show p.val = p.val / 56 * 56 + p.val % 56; omega)

/-- THE RESULT, entry by entry: the pooled arrangement of the arguments. -/
theorem result_eq : result x w1 b1 w2 b2 = outPooled x w1 b1 w2 b2 := by
  funext i
  obtain ⟨b, c, h, w, rfl⟩ : ∃ (b : Fin 32) (c : Fin 256) (h w : Fin 56), i = ix4 b c h w := ⟨i 0, i 1, i 2, i 3, eq_ix4 i⟩
  unfold result
  rw [Cert.Lib.Reshape4.shapeCast_abm_abcd_apply (a := 32) (b := 256) (c := 56) (d := 56) (m := 3136) _ _ rfl b c h w (posOf h w) rfl]
  unfold scaled
  show shapeCast S32x256x3136 x Gen.shapeCasts_S32x256x56x56_S32x256x3136 (ix3 b c (posOf h w))
      * gateRow (hidPooled κ z0 (fun c' p => shapeCast S32x256x3136 x Gen.shapeCasts_S32x256x56x56_S32x256x3136 (ix3 b c' p))
          (Body.W1 w1) (Body.B1 b1)) (Body.W2 w2) (Body.B2 b2) c = _
  rw [view_apply, view_slab]
  rfl

end

end Cert.ReferenceIdeal.Read

end
-- ==== Proof.RefRun.lean ====
/-
  The reference program's run, with its result named.

  Every weakly fair execution of the program ends with the result array at `Read.result` of the argument arrays and
  the arguments unchanged: the host line before the region views `x` as `[32, 256, 3136]`, the region leaves the
  whole-array function of that view and of the weights (`Arr.final`), and the host line after it views the array as
  `[32, 256, 56, 56]`.
-/
import proofs.«115852_g2000109499308976_pallasbulk_549_2_alg».proof.Proof.RefRead

set_option maxRecDepth 16384

noncomputable section

namespace Cert.ReferenceIdeal.Run

open Idealize.ShloMosaic Idealize.ShloMosaic.TcCoe Idealize.ShloMosaic.Tactic Idealize.ShloMosaic.ValueIdx
open Idealize.SL.Sem Idealize.ShloMosaic.StableHlo
open Idealize.ShloMosaic.Pipeline (Dat)
open Cert.ReferenceIdeal Cert.ReferenceIdeal.Gen Cert.Excite

variable (m : (ℓ : Loc nD τ sig) → Buf (Elt Ideal) ℓ) (ρ : Dev nD → PrngReg)

/-! ## The arrays the region finds -/

theorem V_v0 (c : Dev nD) : (V m c main_v0 : FVec Ideal S32x256x3136 .f32)
    = shapeCast S32x256x3136 (m ((c : Thread nD τ).loc main_arg0) : FVec Ideal S32x256x56x56 .f32) Gen.shapeCasts_S32x256x56x56_S32x256x3136 := by
  show StableHlo.after hostOps0 (fun b => m (c, b)) (Proc.devRef .tc main_v0) = _
  after_results <;> rfl

/-- The function the region leaves, of the arguments. -/
theorem left_eq (c : Dev nD) : Arr.left m c
    = Arr.scaled
        (shapeCast S32x256x3136 (m ((c : Thread nD τ).loc main_arg0) : FVec Ideal S32x256x56x56 .f32) Gen.shapeCasts_S32x256x56x56_S32x256x3136)
        (m ((c : Thread nD τ).loc main_arg1)) (m ((c : Thread nD τ).loc main_arg2))
        (m ((c : Thread nD τ).loc main_arg3)) (m ((c : Thread nD τ).loc main_arg4)) := by
  unfold Arr.left
  rw [V_v0, V_main_arg1, V_main_arg2, V_main_arg3, V_main_arg4]

/-! ## The host line after the region -/

theorem tail_eq (c : Dev nD) :
    Pipeline.afterTail₀ cfgs (dats m) 0 (V0 m) [hostOps1] c main_v2
      = Read.result (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = Arr.left m c :=
    (Pipeline.withArrays_arr spec0 launch0.win.arr_inj c (V0 m c) (fun w => (dats m 0 c).arrAt w cfg0.N) 5).trans (Arr.final m c)
  rw [e, left_eq]
  rfl

/-! ## The run -/

/-- Every weakly fair execution of the program ends with the result at `Read.result` of the arguments and the
    arguments unchanged. -/
theorem run : θ_run defs (onTc (τ := τ) (main (F := Ideal))) ⟨m, fun _ => 0, ρ⟩ (fun r => ∀ c : Dev nD,
      r.2.mem ((c.tc : Thread nD τ).loc main_v2)
        = Read.result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.ReferenceIdeal.Run

end
-- ==== Proof.Finite.lean ====
/-
  What the precondition says of the inputs.

  `finite_inputs` is the conjunction, over the five arguments, of "every entry's absolute value is below +∞". An
  extended real whose absolute value `max x (−x)` is below +∞ is a real number; so under the precondition every entry
  of `x` and of `w1` is a real number — the two arrays whose entries the averaging factor and the first layer's
  weights are moved across sums of.
-/
import proofs.«115852_g2000109499308976_pallasbulk_549_2_alg».proof.Pre_finite_inputs
import proofs.«115852_g2000109499308976_pallasbulk_549_2_alg».proof.Proof.LibExtReal
import Idealize.ShloMosaic.Lib.ReduceAll
import Idealize.ShloMosaic.PureOps.Ideal.Laws
import Idealize.ShloMosaic.Lib.ValueIdx

noncomputable section

namespace Cert.Finite

open Idealize.ShloMosaic Idealize.ShloMosaic.ValueIdx Cert.Pre_finite_inputs

instance : Subsingleton S_.Idx := ⟨fun a b => funext fun d => d.elim0⟩

/-- One entry's test: `|x| < +∞` came out true, so `x` is a real number. -/
theorem real_of_test (x : EReal)
    (h : Ideal.cmp .olt (max x (-x)) (Ideal.ofBits .f32 0x7F800000#32) = 1#1) : ∃ r : ℝ, x = r := by
  rw [LibExtReal.inf_f32] at h
  have hlt : max x (-x) < ⊤ := by
    by_contra hn
    simp [Ideal.cmp, hn] at h
  exact LibExtReal.real_of_abs_lt_top x hlt

/-- Under the precondition every entry of `x` and of `w1` is a real number. -/
theorem real_inputs [Facts] (x : FVec Ideal S32x256x56x56 .f32) (w1 : FVec Ideal S256x16 .f32) (b1 : FVec Ideal S1x16 .f32)
    (w2 : FVec Ideal S16x256 .f32) (b2 : FVec Ideal S1x256 .f32)
    (h : fn (F := Ideal) x w1 b1 w2 b2 = fun _ => 1#1) :
    (∀ i, ∃ r : ℝ, x i = r) ∧ (∀ i, ∃ r : ℝ, w1 i = r) := by
  have h0 := congrFun h ix0
  dsimp only [fn, fn_part1] at h0
  obtain ⟨h18, -⟩ := IntOp.andi_eq_one.1 h0
  obtain ⟨h13, -⟩ := IntOp.andi_eq_one.1 h18
  obtain ⟨h8, -⟩ := IntOp.andi_eq_one.1 h13
  obtain ⟨h3, h7⟩ := IntOp.andi_eq_one.1 h8
  exact ⟨fun i => real_of_test (x i) (Host.reduce_andi_all _ _ _ _ ix0 h3 i),
    fun i => real_of_test (w1 i) (Host.reduce_andi_all _ _ _ _ ix0 h7 i)⟩

end Cert.Finite

end
-- ==== Proof.lean ====
/-
  A squeeze-and-excite block, `out = x · gate`, over `x : [32, 256, 56, 56]`: for each batch entry the 256 channels are
  averaged over their 3136 positions, a two-layer perceptron (256 → 16, clamp at zero, 16 → 256, logistic) turns the
  averages into one gate per channel, and every entry of the channel is scaled by its gate.

  The two programs differ in two arrangements only. The kernel applies the first layer at every position and sums the
  positions afterwards, `(Σ_p Σ_c W1 c j · x c p) · κ`, where the reference averages first, `Σ_c ((Σ_p x c p) · κ) · W1 c j`;
  and each writes the factors of the second layer's products in its own order. Over real entries the two hidden rows
  are one number — exchange the two finite sums and move `κ` and `W1 c j` across them — and on the extended reals that
  step is exactly where the precondition is used: every entry of `x` and `w1` is finite, hence real. The second
  difference is commutativity of the product. Everything else is the same text on both sides: the averaging factor is
  the same f32 pattern, the clamp the same zero, the logistic function the same function.

  The layouts do not matter: the kernel works on the matrix view `[8192, 3136]` (row `256·b + c`, column `56·h + w`) with
  transposed weights, the reference on the view `[32, 256, 3136]`; both views hold the same entries in row-major order,
  one block per batch entry, and the 32 blocks tile the array.

  The three frames are the generated ones; the idealization rewrote nothing, so `preserves` asks nothing.
-/
import proofs.«115852_g2000109499308976_pallasbulk_549_2_alg».proof.Defs
import proofs.«115852_g2000109499308976_pallasbulk_549_2_alg».proof.Proof.Gen.Kernel
import proofs.«115852_g2000109499308976_pallasbulk_549_2_alg».proof.Proof.Gen.Kernel.Frame
import proofs.«115852_g2000109499308976_pallasbulk_549_2_alg».proof.Proof.Gen.KernelIdeal
import proofs.«115852_g2000109499308976_pallasbulk_549_2_alg».proof.Proof.Gen.KernelIdeal.Frame
import proofs.«115852_g2000109499308976_pallasbulk_549_2_alg».proof.Proof.Gen.ReferenceIdeal
import proofs.«115852_g2000109499308976_pallasbulk_549_2_alg».proof.Proof.Gen.ReferenceIdeal.Frame
import proofs.«115852_g2000109499308976_pallasbulk_549_2_alg».proof.Proof.Gen.Pre_finite_inputs
import proofs.«115852_g2000109499308976_pallasbulk_549_2_alg».proof.Proof.KernelRun
import proofs.«115852_g2000109499308976_pallasbulk_549_2_alg».proof.Proof.RefRun
import proofs.«115852_g2000109499308976_pallasbulk_549_2_alg».proof.Proof.Finite
import Idealize.ShloMosaic.Adequacy
import Idealize.ShloMosaic.Init

noncomputable section

namespace Cert.Proof

open Idealize.ShloMosaic Idealize.SL.Sem

/-- At the ideal instance the kernel's program ends at the folded arrangement of its arguments and the reference's at
    the pooled arrangement of its own; the arguments agree, and under the precondition the two arrangements are one
    array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Run.run m ρ, ?_⟩
  refine (θ_run Cert.ReferenceIdeal.defs _ _).mono (fun _ h c => ⟨(h c).1.trans ?_, (h c).2⟩)
    (Cert.ReferenceIdeal.Run.run m' ρ')
  obtain ⟨e0, e1, e2, e3, e4⟩ := hagree c
  rw [e0, e1, e2, e3, e4, Cert.ReferenceIdeal.Read.result_eq, Cert.KernelIdeal.Read.result_eq]
  obtain ⟨hx, hw⟩ := Cert.Finite.real_inputs _ _ _ _ _ (hpre c)
  exact (Cert.Excite.out_eq _ _ _ _ _ hx hw).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
